-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x600000 : Shape := ⟨2, ![2, 600000]⟩
abbrev S2x32 : Shape := ⟨2, ![2, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg15 : FVec F S128 .f32) (main_arg16 : FVec F S128x128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x1 .f32 := Host.absf main_arg17
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S128x128 .f32) (main_arg14 : FVec F S128x128 .f32) (main_arg15 : FVec F S128 .f32) (main_arg16 : FVec F S128x128 .f32) (main_arg17 : FVec F S128x1 .f32) (main_arg18 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg15 main_arg16 main_arg17 main_arg18 main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x1 .f32) (main_arg18 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S32x128 .f32) (main_arg6 : FVec F S128 .f32) (main_arg7 : FVec F S32x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x1 .f32) (main_arg18 : FVec F S1 .f32) (main_v13 : IVec S_ 1) (main_v16 : IVec S2x32 1) : IVec S_ 1 :=
  let main_c_5 : IVec S_ 1 := constantI S_ 1 1#1
  let main_v17 : IVec S_ 1 := (fun x v => Host.reduce IntOp.andi x v reducesTo_S2x32_S_d0_1 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x2 .f32) (main_arg1 : IVec S2x600000 32) (main_arg2 : FVec F S2x32 .f32) (main_arg3 : FVec F S32 .f32) (main_arg4 : FVec F S2x32 .f32) (main_arg5 : FVec F S32x128 .f32) (main_arg6 : FVec F S128 .f32) (main_arg7 : FVec F S32x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S128x128 .f32) (main_arg15 : FVec F S128 .f32) (main_arg16 : FVec F S128x128 .f32) (main_arg17 : FVec F S128x1 .f32) (main_arg18 : FVec F S1 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S2x32 .f32 := Host.absf main_arg2
  let main_cst_0 : FVec F S_ .f32 := constant S_ .f32 0x7F800000#32
  let main_v5 : FVec F S2x32 .f32 := broadcastInDim S2x32 ![] bcast_S_S2x32 main_cst_0
  let main_v6 : IVec S2x32 1 := cmpf .olt main_v4 main_v5
  let main_c_1 : IVec S_ 1 := constantI S_ 1 1#1
  let main_v7 : IVec S_ 1 := (fun x v => Host.reduce IntOp.andi x v reducesTo_S2x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S2x32 .f32 := Host.absf main_arg4
  let main_cst_4 : FVec F S_ .f32 := constant S_ .f32 0x7F800000#32
  let main_v15 : FVec F S2x32 .f32 := broadcastInDim S2x32 ![] bcast_S_S2x32 main_cst_4
  let main_v16 : IVec S2x32 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x2 : Shape := ⟨2, ![50000, 2]⟩
abbrev S2x600000 : Shape := ⟨2, ![2, 600000]⟩
abbrev S2x32 : Shape := ⟨2, ![2, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x2 : Shape := ⟨2, ![600000, 2]⟩
abbrev S1x32 : Shape := ⟨2, ![1, 32]⟩
abbrev S50000x32 : Shape := ⟨2, ![50000, 32]⟩
abbrev S5000x2 : Shape := ⟨2, ![5000, 2]⟩
abbrev S5000x1 : Shape := ⟨2, ![5000, 1]⟩
abbrev S5000x32 : Shape := ⟨2, ![5000, 32]⟩
abbrev S600000x32 : Shape := ⟨2, ![600000, 32]⟩
abbrev S1x128 : Shape := ⟨2, ![1, 128]⟩
abbrev S50000x128 : Shape := ⟨2, ![50000, 128]⟩
abbrev S5000x128 : Shape := ⟨2, ![5000, 128]⟩
abbrev S600000x128 : Shape := ⟨2, ![600000, 128]⟩
abbrev S1x1 : Shape := ⟨2, ![1, 1]⟩
abbrev S5000 : Shape := ⟨1, ![5000]⟩

abbrev nBuf : Space → Nat
  | .hbm => 113
  | .vmem => 57
  | .smem => 0
  | _ => 0

abbrev bufTy : (tb : Table) → Fin (tcTables nBuf tb) → BufTy
  | .hbm, ⟨0, _⟩ => ⟨S50000x2, .f32⟩
  | .hbm, ⟨1, _⟩ => ⟨S2x600000, .i32⟩
  | .hbm, ⟨2, _⟩ => ⟨S2x32, .f32⟩
  | .hbm, ⟨3, _⟩ => ⟨S32, .f32⟩
  | .hbm, ⟨4, _⟩ => ⟨S2x32, .f32⟩
  | .hbm, ⟨5, _⟩ => ⟨S32x128, .f32⟩
  | .hbm, ⟨6, _⟩ => ⟨S128, .f32⟩
  | .hbm, ⟨7, _⟩ => ⟨S32x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x128, .f32⟩
  | .hbm, ⟨15, _⟩ => ⟨S128, .f32⟩
  | .hbm, ⟨16, _⟩ => ⟨S128x128, .f32⟩
  | .hbm, ⟨17, _⟩ => ⟨S128x1, .f32⟩
  | .hbm, ⟨18, _⟩ => ⟨S1, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S_, .f32⟩
  | .hbm, ⟨24, _⟩ => ⟨S600000, .f32⟩
  | .hbm, ⟨25, _⟩ => ⟨S_, .f32⟩
  | .hbm, ⟨26, _⟩ => ⟨S50000, .f32⟩
  | .hbm, ⟨27, _⟩ => ⟨S600000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x2, .f32⟩
  | .hbm, ⟨45, _⟩ => ⟨S_, .f32⟩
  | .hbm, ⟨46, _⟩ => ⟨S50000x2, .f32⟩
  | .hbm, ⟨47, _⟩ => ⟨S600000x1, .i32⟩
  | .hbm, ⟨48, _⟩ => ⟨S50000x2, .f32⟩
  | .hbm, ⟨49, _⟩ => ⟨S1x32, .f32⟩
  | .hbm, ⟨50, _⟩ => ⟨S50000x32, .f32⟩
  | .hbm, ⟨51, _⟩ => ⟨S_, .i32⟩
  | .hbm, ⟨52, _⟩ => ⟨S600000, .i32⟩
  | .hbm, ⟨53, _⟩ => ⟨S600000, .i1⟩
  | .hbm, ⟨54, _⟩ => ⟨S_, .i32⟩
  | .hbm, ⟨55, _⟩ => ⟨S600000, .i32⟩
  | .hbm, ⟨56, _⟩ => ⟨S600000, .i32⟩
  | .hbm, ⟨57, _⟩ => ⟨S600000, .i32⟩
  | .hbm, ⟨58, _⟩ => ⟨S600000x1, .i32⟩
  | .hbm, ⟨59, _⟩ => ⟨S600000x32, .f32⟩
  | .hbm, ⟨60, _⟩ => ⟨S_, .f32⟩
  | .hbm, ⟨61, _⟩ => ⟨S50000x32, .f32⟩
  | .hbm, ⟨62, _⟩ => ⟨S600000x1, .i32⟩
  | .hbm, ⟨63, _⟩ => ⟨S50000x32, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S600000, .i32⟩
  | .hbm, ⟨68, _⟩ => ⟨S600000, .i1⟩
  | .hbm, ⟨69, _⟩ => ⟨S_, .i32⟩
  | .hbm, ⟨70, _⟩ => ⟨S600000, .i32⟩
  | .hbm, ⟨71, _⟩ => ⟨S600000, .i32⟩
  | .hbm, ⟨72, _⟩ => ⟨S600000, .i32⟩
  | .hbm, ⟨73, _⟩ => ⟨S600000x1, .i32⟩
  | .hbm, ⟨74, _⟩ => ⟨S600000x128, .f32⟩
  | .hbm, ⟨75, _⟩ => ⟨S_, .f32⟩
  | .hbm, ⟨76, _⟩ => ⟨S50000x128, .f32⟩
  | .hbm, ⟨77, _⟩ => ⟨S600000x1, .i32⟩
  | .hbm, ⟨78, _⟩ => ⟨S50000x128, .f32⟩
  | .hbm, ⟨79, _⟩ => ⟨S1x128, .f32⟩
  | .hbm, ⟨80, _⟩ => ⟨S50000x128, .f32⟩
  | .hbm, ⟨81, _⟩ => ⟨S_, .i32⟩
  | .hbm, ⟨82, _⟩ => ⟨S600000, .i32⟩
  | .hbm, ⟨83, _⟩ => ⟨S600000, .i1⟩
  | .hbm, ⟨84, _⟩ => ⟨S_, .i32⟩
  | .hbm, ⟨85, _⟩ => ⟨S600000, .i32⟩
  | .hbm, ⟨86, _⟩ => ⟨S600000, .i32⟩
  | .hbm, ⟨87, _⟩ => ⟨S600000, .i32⟩
  | .hbm, ⟨88, _⟩ => ⟨S600000x1, .i32⟩
  | .hbm, ⟨89, _⟩ => ⟨S600000x128, .f32⟩
  | .hbm, ⟨90, _⟩ => ⟨S_, .f32⟩
  | .hbm, ⟨91, _⟩ => ⟨S50000x128, .f32⟩
  | .hbm, ⟨92, _⟩ => ⟨S600000x1, .i32⟩
  | .hbm, ⟨93, _⟩ => ⟨S50000x128, .f32⟩
  | .hbm, ⟨94, _⟩ => ⟨S1x128, .f32⟩
  | .hbm, ⟨95, _⟩ => ⟨S50000x128, .f32⟩
  | .hbm, ⟨96, _⟩ => ⟨S_, .i32⟩
  | .hbm, ⟨97, _⟩ => ⟨S600000, .i32⟩
  | .hbm, ⟨98, _⟩ => ⟨S600000, .i1⟩
  | .hbm, ⟨99, _⟩ => ⟨S_, .i32⟩
  | .hbm, ⟨100, _⟩ => ⟨S600000, .i32⟩
  | .hbm, ⟨101, _⟩ => ⟨S600000, .i32⟩
  | .hbm, ⟨102, _⟩ => ⟨S600000, .i32⟩
  | .hbm, ⟨103, _⟩ => ⟨S600000x1, .i32⟩
  | .hbm, ⟨104, _⟩ => ⟨S600000x128, .f32⟩
  | .hbm, ⟨105, _⟩ => ⟨S_, .f32⟩
  | .hbm, ⟨106, _⟩ => ⟨S50000x128, .f32⟩
  | .hbm, ⟨107, _⟩ => ⟨S600000x1, .i32⟩
  | .hbm, ⟨108, _⟩ => ⟨S50000x128, .f32⟩
  | .hbm, ⟨109, _⟩ => ⟨S1x128, .f32⟩
  | .hbm, ⟨110, _⟩ => ⟨S1x128, .f32⟩
  | .hbm, ⟨111, _⟩ => ⟨S1x1, .f32⟩
  | .hbm, ⟨112, _⟩ => ⟨S50000x1, .f32⟩
  | .local _ .vmem, ⟨0, _⟩ => ⟨S5000x2, .f32⟩
  | .local _ .vmem, ⟨1, _⟩ => ⟨S5000x2, .f32⟩
  | .local _ .vmem, ⟨2, _⟩ => ⟨S5000x1, .f32⟩
  | .local _ .vmem, ⟨3, _⟩ => ⟨S5000x1, .f32⟩
  | .local _ .vmem, ⟨4, _⟩ => ⟨S5000x2, .f32⟩
  | .local _ .vmem, ⟨5, _⟩ => ⟨S5000x2, .f32⟩
  | .local _ .vmem, ⟨6, _⟩ => ⟨S2x32, .f32⟩
  | .local _ .vmem, ⟨7, _⟩ => ⟨S1x32, .f32⟩
  | .local _ .vmem, ⟨8, _⟩ => ⟨S2x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x1, .f32⟩
  | .local _ .vmem, ⟨14, _⟩ => ⟨S5000x1, .f32⟩
  | .local _ .vmem, ⟨15, _⟩ => ⟨S5000x32, .f32⟩
  | .local _ .vmem, ⟨16, _⟩ => ⟨S5000x32, .f32⟩
  | .local _ .vmem, ⟨17, _⟩ => ⟨S32x128, .f32⟩
  | .local _ .vmem, ⟨18, _⟩ => ⟨S1x128, .f32⟩
  | .local _ .vmem, ⟨19, _⟩ => ⟨S32x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x1, .f32⟩
  | .local _ .vmem, ⟨36, _⟩ => ⟨S5000x1, .f32⟩
  | .local _ .vmem, ⟨37, _⟩ => ⟨S5000x128, .f32⟩
  | .local _ .vmem, ⟨38, _⟩ => ⟨S5000x128, .f32⟩
  | .local _ .vmem, ⟨39, _⟩ => ⟨S128x128, .f32⟩
  | .local _ .vmem, ⟨40, _⟩ => ⟨S1x128, .f32⟩
  | .local _ .vmem, ⟨41, _⟩ => ⟨S128x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x1, .f32⟩
  | .local _ .vmem, ⟨47, _⟩ => ⟨S5000x1, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S1x128, .f32⟩
  | .local _ .vmem, ⟨52, _⟩ => ⟨S128x128, .f32⟩
  | .local _ .vmem, ⟨53, _⟩ => ⟨S1x128, .f32⟩
  | .local _ .vmem, ⟨54, _⟩ => ⟨S1x1, .f32⟩
  | .local _ .vmem, ⟨55, _⟩ => ⟨S5000x1, .f32⟩
  | .local _ .vmem, ⟨56, _⟩ => ⟨S5000x1, .f32⟩
  | _, _ => ⟨S50000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | _, _ => false

abbrev semScoped : Fin 0 → Bool
  | ⟨_, h⟩ => absurd h (Nat.not_lt_zero _)

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTc nBuf bufTy 0 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_7 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_c_8 : Ref sig .tc := ⟨.hbm, 66, rfl⟩
abbrev main_v37 : Ref sig .tc := ⟨.hbm, 67, rfl⟩
abbrev main_v38 : Ref sig .tc := ⟨.hbm, 68, rfl⟩
abbrev main_c_9 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_c_11 : Ref sig .tc := ⟨.hbm, 81, rfl⟩
abbrev main_v49 : Ref sig .tc := ⟨.hbm, 82, rfl⟩
abbrev main_v50 : Ref sig .tc := ⟨.hbm, 83, rfl⟩
abbrev main_c_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_13 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_c_14 : Ref sig .tc := ⟨.hbm, 96, rfl⟩
abbrev main_v61 : Ref sig .tc := ⟨.hbm, 97, rfl⟩
abbrev main_v62 : Ref sig .tc := ⟨.hbm, 98, rfl⟩
abbrev main_c_15 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_16 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc4_stg3_0 : Ref sig .tc := ⟨.vmem, 50, rfl⟩
abbrev cc4_stg4_0 : Ref sig .tc := ⟨.vmem, 51, rfl⟩
abbrev cc4_stg5_0 : Ref sig .tc := ⟨.vmem, 52, rfl⟩
abbrev cc4_stg6_0 : Ref sig .tc := ⟨.vmem, 53, rfl⟩
abbrev cc4_stg7_0 : Ref sig .tc := ⟨.vmem, 54, rfl⟩
abbrev cc4_stg8_0 : Ref sig .tc := ⟨.vmem, 55, rfl⟩
abbrev cc4_stg8_1 : Ref sig .tc := ⟨.vmem, 56, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc4_sem3_0 : DmaSem sig := 50
abbrev cc4_sem4_0 : DmaSem sig := 51
abbrev cc4_sem5_0 : DmaSem sig := 52
abbrev cc4_sem6_0 : DmaSem sig := 53
abbrev cc4_sem7_0 : DmaSem sig := 54
abbrev cc4_sem8_0 : DmaSem sig := 55
abbrev cc4_sem8_1 : DmaSem sig := 56

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 2 → Memref sig .tc .vmem S5000x1 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x2 : S_.BroadcastsInDim S50000x2 (![] : Fin 0 → Fin S50000x2.rank)
  shapeCasts_S32_S1x32 : S32.ShapeCasts S1x32
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x2 : S5000x1.Broadcasts S5000x2
  inb_S2x32_S2x32_0_0 : ∀ a, (![0, 0] : Fin 2 → Nat) a + S2x32.size a ≤ S2x32.size a
  h_S2x32 : 0 < S2x32.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S128_S1x128 : S128.ShapeCasts S1x128
  shapeCasts_S5000x32_S5000x32 : S5000x32.ShapeCasts S5000x32
  broadcasts_S5000x1_S5000x32 : S5000x1.Broadcasts S5000x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  shapeCasts_S128x1_S1x128 : S128x1.ShapeCasts S1x128
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S5000x128_S5000 : S5000x128.Reduces [1] S5000
  shapeCasts_S5000_S5000x1 : S5000.ShapeCasts S5000x1
  broadcasts_S1x1_S5000x1 : S1x1.Broadcasts S5000x1
  scatter_S50000_S600000x1_S600000_n_0_0_1_wf : ScatterDims.WF S50000 S600000x1 S600000 [] [0] [0] 1
  gather_S50000x2_S600000x1_S600000x2_1_0_n_n_0_1_12_wf : GatherDims.WF S50000x2 S600000x1 S600000x2 [1] [0] [] [0] [] 1 ![1, 2]
  scatter_S50000x2_S600000x1_S600000x2_1_0_0_1_wf : ScatterDims.WF S50000x2 S600000x1 S600000x2 [1] [0] [0] 1
  dot_S5000x2_S2x32_S5000x32_1_0_0_1_n_n_wf : DotDims.WF S5000x2 S2x32 S5000x32 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  dot_S5000x32_S32x128_S5000x128_1_0_0_1_n_n_wf : DotDims.WF S5000x32 S32x128 S5000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S50000x2.size a
  hwx0_0 : ∀ i : grid0.Coords, EltTy.bits .f32 = 32 ∨ (Rect.block (s := S50000x2) S5000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x2.size a ≤ S50000x2.size a
  hwx0_2 : ∀ i : grid0.Coords, EltTy.bits .f32 = 32 ∨ (Rect.block (s := S50000x2) S5000x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x32.size a ≤ S2x32.size a
  hwx0_3 : ∀ i : grid0.Coords, EltTy.bits .f32 = 32 ∨ (Rect.block (s := S2x32) S2x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x32.size a ≤ S2x32.size a
  hwx0_5 : ∀ i : grid0.Coords, EltTy.bits .f32 = 32 ∨ (Rect.block (s := S2x32) S2x32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x32.size a ≤ S50000x32.size a
  hwx0_6 : ∀ i : grid0.Coords, EltTy.bits .f32 = 32 ∨ (Rect.block (s := S50000x32) S5000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S50000x32.size a
  hwx1_2 : ∀ i : grid1.Coords, EltTy.bits .f32 = 32 ∨ (Rect.block (s := S50000x32) S5000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x128.size a ≤ S32x128.size a
  hwx1_3 : ∀ i : grid1.Coords, EltTy.bits .f32 = 32 ∨ (Rect.block (s := S32x128) S32x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S32x128.size a
  hwx1_5 : ∀ i : grid1.Coords, EltTy.bits .f32 = 32 ∨ (Rect.block (s := S32x128) S32x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128x128.size a ≤ S128x128.size a
  hwx3_5 : ∀ i : grid3.Coords, EltTy.bits .f32 = 32 ∨ (Rect.block (s := S128x128) S128x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .f32 = 32 ∨ (Rect.block (s := S50000x1) S5000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x1.size a ≤ S1x1.size a
  hwx4_7 : ∀ i : grid4.Coords, EltTy.bits .f32 = 32 ∨ (Rect.block (s := S1x1) S1x1.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x1.size a ≤ S50000x1.size a
  hwx4_8 : ∀ i : grid4.Coords, EltTy.bits .f32 = 32 ∨ (Rect.block (s := S50000x1) S5000x1.size (cc4_transform_8 i) (hinb4_8 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x2_S600000x1_S600000x2_1_0_n_n_0_1_12 : GatherDims S50000x2 S600000x1 S600000x2 where
  offsetDims := [1]
  collapsedSliceDims := [0]
  operandBatchingDims := []
  startIndicesBatchingDims := []
  startIndexMap := [0]
  indexVectorDim := 1
  sliceSizes := ![1, 2]
  wf := gather_S50000x2_S600000x1_S600000x2_1_0_n_n_0_1_12_wf
def scatter_S50000x2_S600000x1_S600000x2_1_0_0_1 : ScatterDims S50000x2 S600000x1 S600000x2 where
  updateWindowDims := [1]
  insertedWindowDims := [0]
  scatterDimsToOperandDims := [0]
  indexVectorDim := 1
  wf := scatter_S50000x2_S600000x1_S600000x2_1_0_0_1_wf
def dot_S5000x2_S2x32_S5000x32_1_0_0_1_n_n : DotDims S5000x2 S2x32 S5000x32 where
  lhsContracting := [1]
  rhsContracting := [0]
  lhsNonContracting := [0]
  rhsNonContracting := [1]
  lhsBatch := []
  rhsBatch := []
  wf := dot_S5000x2_S2x32_S5000x32_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S2x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v35) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S32x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v36) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v47) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg10) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S128x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v60) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v70) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v12) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S5000x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg14) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v71) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg16) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v72) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v73) S1x1.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v74) S5000x1.size cc4_transform_8 reads4_8 true false 2 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

class Facts : Prop extends Facts₀ where

variable [Facts]
-- ==== ReferenceIdeal.lean ====
abbrev S50000x2 : Shape := ⟨2, ![50000, 2]⟩
abbrev S2x600000 : Shape := ⟨2, ![2, 600000]⟩
abbrev S2x32 : Shape := ⟨2, ![2, 32]⟩
abbrev S32 : Shape := ⟨1, ![32]⟩
abbrev S32x128 : Shape := ⟨2, ![32, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x2 : Shape := ⟨2, ![600000, 2]⟩
abbrev S50000x32 : Shape := ⟨2, ![50000, 32]⟩
abbrev S1x32 : Shape := ⟨2, ![1, 32]⟩
abbrev S600000x32 : Shape := ⟨2, ![600000, 32]⟩
abbrev S50000x128 : Shape := ⟨2, ![50000, 128]⟩
abbrev S1x128 : Shape := ⟨2, ![1, 128]⟩
abbrev S600000x128 : Shape := ⟨2, ![600000, 128]⟩
abbrev S1x1 : Shape := ⟨2, ![1, 1]⟩

abbrev nBuf : Space → Nat
  | .hbm => 160
  | .vmem => 0
  | .smem => 0
  | _ => 0

abbrev hbmTy0_0 (i : Nat) : BufTy := match i % 128 with
  | 0 => ⟨S50000x2, .f32⟩
  | 1 => ⟨S2x600000, .i32⟩
  | 2 => ⟨S2x32, .f32⟩
  | 3 => ⟨S32, .f32⟩
  | 4 => ⟨S2x32, .f32⟩
  | 5 => ⟨S32x128, .f32⟩
  | 6 => ⟨S128, .f32⟩
  | 7 => ⟨S32x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S128x128, .f32⟩
  | 15 => ⟨S128, .f32⟩
  | 16 => ⟨S128x128, .f32⟩
  | 17 => ⟨S128x1, .f32⟩
  | 18 => ⟨S1, .f32⟩
  | 19 => ⟨S1x600000, .i32⟩
  | 20 => ⟨S600000, .i32⟩
  | 21 => ⟨S1x600000, .i32⟩
  | 22 => ⟨S600000, .i32⟩
  | 23 => ⟨S_, .f32⟩
  | 24 => ⟨S600000, .f32⟩
  | 25 => ⟨S_, .f32⟩
  | 26 => ⟨S50000, .f32⟩
  | 27 => ⟨S600000x1, .i32⟩
  | 28 => ⟨S50000, .f32⟩
  | 29 => ⟨S_, .f32⟩
  | 30 => ⟨S50000, .f32⟩
  | 31 => ⟨S50000, .f32⟩
  | 32 => ⟨S_, .f32⟩
  | 33 => ⟨S50000, .f32⟩
  | 34 => ⟨S50000, .f32⟩
  | 35 => ⟨S50000x1, .f32⟩
  | 36 => ⟨S_, .i32⟩
  | 37 => ⟨S600000, .i32⟩
  | 38 => ⟨S600000, .i1⟩
  | 39 => ⟨S_, .i32⟩
  | 40 => ⟨S600000, .i32⟩
  | 41 => ⟨S600000, .i32⟩
  | 42 => ⟨S600000, .i32⟩
  | 43 => ⟨S600000x1, .i32⟩
  | 44 => ⟨S600000x2, .f32⟩
  | 45 => ⟨S_, .f32⟩
  | 46 => ⟨S50000x2, .f32⟩
  | 47 => ⟨S600000x1, .i32⟩
  | 48 => ⟨S50000x2, .f32⟩
  | 49 => ⟨S50000x2, .f32⟩
  | 50 => ⟨S50000x2, .f32⟩
  | 51 => ⟨S50000x32, .f32⟩
  | 52 => ⟨S1x32, .f32⟩
  | 53 => ⟨S50000x32, .f32⟩
  | 54 => ⟨S50000x32, .f32⟩
  | 55 => ⟨S50000x32, .f32⟩
  | 56 => ⟨S50000x32, .f32⟩
  | 57 => ⟨S_, .f32⟩
  | 58 => ⟨S50000x32, .f32⟩
  | 59 => ⟨S50000x32, .f32⟩
  | 60 => ⟨S_, .i32⟩
  | 61 => ⟨S600000, .i32⟩
  | 62 => ⟨S600000, .i1⟩
  | 63 => ⟨S_, .i32⟩
  | 64 => ⟨S600000, .i32⟩
  | 65 => ⟨S600000, .i32⟩
  | 66 => ⟨S600000, .i32⟩
  | 67 => ⟨S600000x1, .i32⟩
  | 68 => ⟨S600000x32, .f32⟩
  | 69 => ⟨S_, .f32⟩
  | 70 => ⟨S50000x32, .f32⟩
  | 71 => ⟨S600000x1, .i32⟩
  | 72 => ⟨S50000x32, .f32⟩
  | 73 => ⟨S50000x32, .f32⟩
  | 74 => ⟨S50000x32, .f32⟩
  | 75 => ⟨S50000x128, .f32⟩
  | 76 => ⟨S1x128, .f32⟩
  | 77 => ⟨S50000x128, .f32⟩
  | 78 => ⟨S50000x128, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S_, .f32⟩
  | 94 => ⟨S50000x128, .f32⟩
  | 95 => ⟨S600000x1, .i32⟩
  | 96 => ⟨S50000x128, .f32⟩
  | 97 => ⟨S50000x128, .f32⟩
  | 98 => ⟨S50000x128, .f32⟩
  | 99 => ⟨S50000x128, .f32⟩
  | 100 => ⟨S1x128, .f32⟩
  | 101 => ⟨S50000x128, .f32⟩
  | 102 => ⟨S50000x128, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S_, .i32⟩
  | 109 => ⟨S600000, .i32⟩
  | 110 => ⟨S600000, .i1⟩
  | 111 => ⟨S_, .i32⟩
  | 112 => ⟨S600000, .i32⟩
  | 113 => ⟨S600000, .i32⟩
  | 114 => ⟨S600000, .i32⟩
  | 115 => ⟨S600000x1, .i32⟩
  | 116 => ⟨S600000x128, .f32⟩
  | 117 => ⟨S_, .f32⟩
  | 118 => ⟨S50000x128, .f32⟩
  | 119 => ⟨S600000x1, .i32⟩
  | 120 => ⟨S50000x128, .f32⟩
  | 121 => ⟨S50000x128, .f32⟩
  | 122 => ⟨S50000x128, .f32⟩
  | 123 => ⟨S50000x128, .f32⟩
  | 124 => ⟨S1x128, .f32⟩
  | 125 => ⟨S50000x128, .f32⟩
  | 126 => ⟨S50000x128, .f32⟩
  | 127 => ⟨S50000x128, .f32⟩
  | _ => ⟨S50000x2, .f32⟩

abbrev hbmTy0_1 (i : Nat) : BufTy := match i % 128 with
  | 0 => ⟨S50000x128, .f32⟩
  | 1 => ⟨S_, .f32⟩
  | 2 => ⟨S50000x128, .f32⟩
  | 3 => ⟨S50000x128, .f32⟩
  | 4 => ⟨S_, .i32⟩
  | 5 => ⟨S600000, .i32⟩
  | 6 => ⟨S600000, .i1⟩
  | 7 => ⟨S_, .i32⟩
  | 8 => ⟨S600000, .i32⟩
  | 9 => ⟨S600000, .i32⟩
  | 10 => ⟨S600000, .i32⟩
  | 11 => ⟨S600000x1, .i32⟩
  | 12 => ⟨S600000x128, .f32⟩
  | 13 => ⟨S_, .f32⟩
  | 14 => ⟨S50000x128, .f32⟩
  | 15 => ⟨S600000x1, .i32⟩
  | 16 => ⟨S50000x128, .f32⟩
  | 17 => ⟨S50000x128, .f32⟩
  | 18 => ⟨S50000x128, .f32⟩
  | 19 => ⟨S50000x128, .f32⟩
  | 20 => ⟨S1x128, .f32⟩
  | 21 => ⟨S50000x128, .f32⟩
  | 22 => ⟨S50000x128, .f32⟩
  | 23 => ⟨S50000x128, .f32⟩
  | 24 => ⟨S50000x128, .f32⟩
  | 25 => ⟨S_, .f32⟩
  | 26 => ⟨S50000x128, .f32⟩
  | 27 => ⟨S50000x128, .f32⟩
  | 28 => ⟨S50000x1, .f32⟩
  | 29 => ⟨S1x1, .f32⟩
  | 30 => ⟨S50000x1, .f32⟩
  | 31 => ⟨S50000x1, .f32⟩
  | _ => ⟨S50000x2, .f32⟩

abbrev hbmTy (i : Nat) : BufTy := match i / 128 with
  | 0 => hbmTy0_0 i
  | 1 => hbmTy0_1 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_call0_cst : Ref sig .tc := ⟨.hbm, 57, rfl⟩
abbrev main_call0_v0 : Ref sig .tc := ⟨.hbm, 58, rfl⟩
abbrev main_v31 : Ref sig .tc := ⟨.hbm, 59, rfl⟩
abbrev main_c_5 : Ref sig .tc := ⟨.hbm, 60, rfl⟩
abbrev main_v32 : Ref sig .tc := ⟨.hbm, 61, rfl⟩
abbrev main_v33 : Ref sig .tc := ⟨.hbm, 62, rfl⟩
abbrev main_c_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_7 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_cst : Ref sig .tc := ⟨.hbm, 81, rfl⟩
abbrev main_call1_v0 : Ref sig .tc := ⟨.hbm, 82, rfl⟩
abbrev main_v50 : Ref sig .tc := ⟨.hbm, 83, rfl⟩
abbrev main_c_8 : Ref sig .tc := ⟨.hbm, 84, rfl⟩
abbrev main_v51 : Ref sig .tc := ⟨.hbm, 85, rfl⟩
abbrev main_v52 : Ref sig .tc := ⟨.hbm, 86, rfl⟩
abbrev main_c_9 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_call2_cst : Ref sig .tc := ⟨.hbm, 105, rfl⟩
abbrev main_call2_v0 : Ref sig .tc := ⟨.hbm, 106, rfl⟩
abbrev main_v69 : Ref sig .tc := ⟨.hbm, 107, rfl⟩
abbrev main_c_11 : Ref sig .tc := ⟨.hbm, 108, rfl⟩
abbrev main_v70 : Ref sig .tc := ⟨.hbm, 109, rfl⟩
abbrev main_v71 : Ref sig .tc := ⟨.hbm, 110, rfl⟩
abbrev main_c_12 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_cst_13 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_call3_cst : Ref sig .tc := ⟨.hbm, 129, rfl⟩
abbrev main_call3_v0 : Ref sig .tc := ⟨.hbm, 130, rfl⟩
abbrev main_v88 : Ref sig .tc := ⟨.hbm, 131, rfl⟩
abbrev main_c_14 : Ref sig .tc := ⟨.hbm, 132, rfl⟩
abbrev main_v89 : Ref sig .tc := ⟨.hbm, 133, rfl⟩
abbrev main_v90 : Ref sig .tc := ⟨.hbm, 134, rfl⟩
abbrev main_c_15 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_16 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_call4_cst : Ref sig .tc := ⟨.hbm, 153, rfl⟩
abbrev main_call4_v0 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x2 : S_.BroadcastsInDim S50000x2 (![] : Fin 0 → Fin S50000x2.rank)
  bcast_S50000x1_S50000x2_0_1 : S50000x1.BroadcastsInDim S50000x2 (![0, 1] : Fin 2 → Fin S50000x2.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S_S50000x32 : S_.BroadcastsInDim S50000x32 (![] : Fin 0 → Fin S50000x32.rank)
  bcast_S50000x1_S50000x32_0_1 : S50000x1.BroadcastsInDim S50000x32 (![0, 1] : Fin 2 → Fin S50000x32.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  scatter_S50000_S600000x1_S600000_n_0_0_1_wf : ScatterDims.WF S50000 S600000x1 S600000 [] [0] [0] 1
  gather_S50000x2_S600000x1_S600000x2_1_0_n_n_0_1_12_wf : GatherDims.WF S50000x2 S600000x1 S600000x2 [1] [0] [] [0] [] 1 ![1, 2]
  scatter_S50000x2_S600000x1_S600000x2_1_0_0_1_wf : ScatterDims.WF S50000x2 S600000x1 S600000x2 [1] [0] [0] 1
  dot_S50000x2_S2x32_S50000x32_1_0_0_1_n_n_wf : DotDims.WF S50000x2 S2x32 S50000x32 [1] [0] [0] [1] [] []
  gather_S50000x32_S600000x1_S600000x32_1_0_n_n_0_1_132_wf : GatherDims.WF S50000x32 S600000x1 S600000x32 [1] [0] [] [0] [] 1 ![1, 32]
  scatter_S50000x32_S600000x1_S600000x32_1_0_0_1_wf : ScatterDims.WF S50000x32 S600000x1 S600000x32 [1] [0] [0] 1
  dot_S50000x32_S32x128_S50000x128_1_0_0_1_n_n_wf : DotDims.WF S50000x32 S32x128 S50000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  dot_S50000x128_S128x1_S50000x1_1_0_0_1_n_n_wf : DotDims.WF S50000x128 S128x1 S50000x1 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x2_S600000x1_S600000x2_1_0_n_n_0_1_12 : GatherDims S50000x2 S600000x1 S600000x2 where
  offsetDims := [1]
  collapsedSliceDims := [0]
  operandBatchingDims := []
  startIndicesBatchingDims := []
  startIndexMap := [0]
  indexVectorDim := 1
  sliceSizes := ![1, 2]
  wf := gather_S50000x2_S600000x1_S600000x2_1_0_n_n_0_1_12_wf
def scatter_S50000x2_S600000x1_S600000x2_1_0_0_1 : ScatterDims S50000x2 S600000x1 S600000x2 where
  updateWindowDims := [1]
  insertedWindowDims := [0]
  scatterDimsToOperandDims := [0]
  indexVectorDim := 1
  wf := scatter_S50000x2_S600000x1_S600000x2_1_0_0_1_wf
def dot_S50000x2_S2x32_S50000x32_1_0_0_1_n_n : DotDims S50000x2 S2x32 S50000x32 where
  lhsContracting := [1]
  rhsContracting := [0]
  lhsNonContracting := [0]
  rhsNonContracting := [1]
  lhsBatch := []
  rhsBatch := []
  wf := dot_S50000x2_S2x32_S50000x32_1_0_0_1_n_n_wf
def gather_S50000x32_S600000x1_S600000x32_1_0_n_n_0_1_132 : GatherDims S50000x32 S600000x1 S600000x32 where
  offsetDims := [1]
  collapsedSliceDims := [0]
  operandBatchingDims := []
  startIndicesBatchingDims := []
  startIndexMap := [0]
  indexVectorDim := 1
  sliceSizes := ![1, 32]
  wf := gather_S50000x32_S600000x1_S600000x32_1_0_n_n_0_1_132_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf

class Facts : Prop extends Facts₀ where

variable [Facts]
-- ==== Proof.Kept.lean ====
/-
  What each stretch of host operations and each region leaves alone.

  The program alternates five stretches of host operations with five regions. A stretch writes only the buffers of its own
  results; a region writes only its output array. Every other buffer — the arguments, the two edge-endpoint vectors and the
  column of reciprocal degrees computed by the first stretch — keeps its contents across them.
-/
import proofs.«123790_j70909910057300_1_alg».proof.Proof.Gen.KernelIdeal.Frame
import Idealize.ShloMosaic.PureOps.Ideal

set_option maxRecDepth 16384

noncomputable section

namespace Cert.KernelIdeal.Kept

open Idealize.ShloMosaic Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- The buffers stretch 0's operations write. -/
abbrev hostOps0_W : List (Ref sig .tc) := [main_v0, main_v1, main_v2, main_v3, main_cst, main_v4, main_cst_0, main_v5, main_v6, main_v7, main_cst_1, main_v8, main_v9, main_cst_2, main_v10, main_v11, main_v12, main_c, main_v13, main_v14, main_c_3, main_v15, main_v16, main_v17, main_v18, main_v19, main_cst_4, main_v20, main_v21, main_v22, main_v23]
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers stretch 1's operations write. -/
abbrev hostOps1_W : List (Ref sig .tc) := [main_c_5, main_v25, main_v26, main_c_6, main_v27, main_v28, main_v29, main_v30, main_v31, main_cst_7, main_v32, main_v33, main_v34, main_v35]
theorem hostOps1_writes : (hostOps1 : List (HloOp τ sig (Elt Ideal))).Forall fun op => op.writes ⊆ (hostOps1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers stretch 2's operations write. -/
abbrev hostOps2_W : List (Ref sig .tc) := [main_c_8, main_v37, main_v38, main_c_9, main_v39, main_v40, main_v41, main_v42, main_v43, main_cst_10, main_v44, main_v45, main_v46, main_v47]
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers stretch 3's operations write. -/
abbrev hostOps3_W : List (Ref sig .tc) := [main_c_11, main_v49, main_v50, main_c_12, main_v51, main_v52, main_v53, main_v54, main_v55, main_cst_13, main_v56, main_v57, main_v58, main_v59]
theorem hostOps3_writes : (hostOps3 : List (HloOp τ sig (Elt Ideal))).Forall fun op => op.writes ⊆ (hostOps3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- The buffers stretch 4's operations write. -/
abbrev hostOps4_W : List (Ref sig .tc) := [main_c_14, main_v61, main_v62, main_c_15, main_v63, main_v64, main_v65, main_v66, main_v67, main_cst_16, main_v68, main_v69, main_v70, main_v71, main_v72, main_v73]
theorem hostOps4_writes : (hostOps4 : List (HloOp τ sig (Elt Ideal))).Forall fun op => op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  repeat' apply And.intro
  all_goals exact List.mem_map_of_mem (by decide)

/-- Stretch 0 leaves a buffer it does not write at its launch contents. -/
theorem W1_of (c : Dev nD) (r : Ref sig .tc) (h : r ∉ hostOps0_W) :
    W1 m ρ c (Proc.devRef .tc r) = m ((c : Thread nD τ).loc r) :=
  StableHlo.after_of_writes_sub hostOps0 _ hostOps0_writes h

/-- Stretch 1 leaves a buffer it does not write as region 0 left it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h

/-- Stretch 2 leaves a buffer it does not write as region 1 left it. -/
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h

/-- Stretch 3 leaves a buffer it does not write as region 2 left it. -/
theorem W7_of (c : Dev nD) (r : Ref sig .tc) (h : r ∉ hostOps3_W) :
    W7 m ρ c (Proc.devRef .tc r) = W6 m ρ c (Proc.devRef .tc r) :=
  StableHlo.after_of_writes_sub hostOps3 _ hostOps3_writes h

/-- Stretch 4 leaves a buffer it does not write as region 3 left it. -/
theorem W9_of (c : Dev nD) (r : Ref sig .tc) (h : r ∉ hostOps4_W) :
    W9 m ρ c (Proc.devRef .tc r) = W8 m ρ c (Proc.devRef .tc r) :=
  StableHlo.after_of_writes_sub hostOps4 _ hostOps4_writes h

/-- Region 0 leaves an input window's array as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- Region 1 leaves an input window's array as it found it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-- Region 2 leaves an input window's array as it found it. -/
theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin _).trans (A_eq2 (V5 m ρ) c w))

/-- Region 3 leaves an input window's array as it found it. -/
theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((dat3 (V7 m ρ) c).arrAt_in w hin _).trans (A_eq3 (V7 m ρ) c w))

/-- Region 4 leaves an input window's array as it found it. -/
theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((dat4 (V9 m ρ) c).arrAt_in w hin _).trans (A_eq4 (V9 m ρ) c w))

end Cert.KernelIdeal.Kept

end
-- ==== Proof.LibPlainMatmul.lean ====
/-
  A plain matrix product into a zero accumulator, read at an entry, at the exact (extended-real) values.

  For an m×k matrix A and a k×n matrix B the product's (a, b) entry is the sum over the contracted coordinate c of
  A(a, c) · B(c, b): the contraction's index set has one axis, of extent k, and is re-indexed by its one coordinate.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the plain product of an m×k by a k×n matrix, accumulated into the zero matrix, is
    `∑ c, A (a, c) * B (c, b)` on the extended reals. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  show FloatOps.matmul (DotDims.plain m k n) prec A B (constant ⟨2, ![m, n]⟩ .f32 0x00000000#32) (ix2 a b) = _
  rw [Ideal.matmul_constant_zero_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

end Idealize.ShloMosaic.ValueIdx

end
-- ==== Proof.LibPlainDot.lean ====
/-
  A plain matrix product computed as a host dot_general, read at an entry, at the exact (extended-real) values.

  For an m×k matrix A and a k×n matrix B the product's (a, b) entry is the sum over the contracted coordinate c of
  A(a, c) · B(c, b), whatever the schedule key: the contraction's index set has one axis, of extent k, and is
  re-indexed by its one coordinate. The twin, for the host's product, of the same reading of a matmul into a zero
  accumulator.
-/
import Idealize.ShloMosaic.PureOps.Ideal.Laws
import Idealize.ShloMosaic.Lib.ValueIdx

noncomputable section

open scoped BigOperators

namespace Idealize.ShloMosaic.ValueIdx

open Idealize.ShloMosaic

/-- The (a, b) entry of the host's plain product of an m×k by a k×n matrix is `∑ c, A (a, c) * B (c, b)` on the
    extended reals. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b) = ∑ c : Fin k, A (ix2 a c) * B (ix2 c b) := by
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  have el : (DotDims.plain m k n).lhsIdx (ix2 a b) ((contrEquiv1 (DotDims.plain m k n) k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have er : (DotDims.plain m k n).rhsIdx (ix2 a b) ((contrEquiv1 (DotDims.plain m k n) k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [el, er]

/-- The same for the schedule key of one device's data, as a host program applies it. -/
theorem hostDotGeneral_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    Host.dotGeneral (DotDims.plain m k n) prec A B (ix2 a b) = ∑ c : Fin k, A (ix2 a c) * B (ix2 c b) :=
  dotGeneral_plain_apply prec .single A B a b

end Idealize.ShloMosaic.ValueIdx

end
-- ==== Proof.LibColumnBroadcast.lean ====
/-
  One column broadcast over many.

  An `[a, 1]` array broadcast to `[a, b]` repeats its one column: the entry at `(p, c)` is the operand's entry at
  `(p, 0)`, whatever the column `c`. (The row form, `[1, b]` to `[a, b]`, is the library's
  `broadcastTo_1b_ab_apply`; this is its transpose.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.LibColumnCast.lean ====
/-
  A vector cast to a column.

  An `[a]` array cast to `[a, 1]` (what a row reduction that keeps its axis produces) has the operand's entries down
  its one column: the entry at `(i, u)` is the operand's entry at `i`, whatever the unit coordinate `u`. Both indices
  have the same row-major position, `i = i · 1 + u` with `u = 0`.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibColumnCast
-- ==== Proof.LibRowWise.lean ====
/-
  Operations that act on each row of an [m, n] array by itself, read at an entry, on the extended reals.

  For an array Z with m rows and n columns:
  * a length-n vector laid out as a [1, n] row and repeated down the m rows reads, at (a, b), the vector at b
    (`biasRow_apply`); a length-m vector laid out as an [m, 1] column and repeated across the n columns reads, at
    (a, b), the vector at a (`column_apply`);
  * reducing over the column axis inserts the column coordinate at position 1 (`lift_row`), so the host's maximum
    and sum over that axis read, at row a, the fold of max (the sum) over the row's n entries
    (`hostRowMax_apply`, `hostRowSum_apply`), and so do the vector reductions (`vecRowMax_apply`, `vecRowSum_apply`);
  * `logSoftmaxRow y q = (y q - max y) - log (Σ_k exp (y k - max y))` is the logarithm of the softmax of one row, and
    the host's chain of operations for it reads, at (a, b), that function of row a (`hostLogSoftmax_apply`);
  * the host's sum of an array and a bias row, clamped below at zero, reads at (a, b) max (Z(a, b) + v(b), 0)
    (`hostBiasRelu_apply`).
  Nothing here depends on m: a block of rows and the whole array are read by the same lemma.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.RowWise

open Idealize.ShloMosaic Idealize.ShloMosaic.ValueIdx

variable {α : Type}

/-- A vector as a row repeated down the rows, the host way, read at an entry. -/
theorem biasRow_apply {m n : ℕ} (v : (⟨1, ![n]⟩ : Shape).Idx → α)
    (g1 : (⟨1, ![n]⟩ : Shape).BroadcastsInDim ⟨2, ![1, n]⟩ ![1])
    (g2 : (⟨2, ![1, n]⟩ : Shape).BroadcastsInDim ⟨2, ![m, n]⟩ ![0, 1]) (a : Fin m) (b : Fin n) :
    broadcastInDim ⟨2, ![m, n]⟩ ![0, 1] g2 (broadcastInDim ⟨2, ![1, n]⟩ ![1] g1 v) (ix2 a b) = v (ix1 b) := by
  have hb : b.val = if n = 1 then 0 else b.val := by
    split
    · have := b.isLt; omega
    · rfl
  have hk2 : ∀ ax : Fin 2, ((ix2 (0 : Fin 1) b : (⟨2, ![1, n]⟩ : Shape).Idx) ax).val
      = if (⟨2, ![1, n]⟩ : Shape).size ax = 1 then 0 else ((ix2 a b : (⟨2, ![m, n]⟩ : Shape).Idx) ((![0, 1] : Fin 2 → Fin 2) ax)).val := fun ax =>
    match ax with
    | ⟨0, _⟩ => rfl
    | ⟨1, _⟩ => hb
  have hk1 : ∀ ax : Fin 1, ((ix1 b : (⟨1, ![n]⟩ : Shape).Idx) ax).val
      = if (⟨1, ![n]⟩ : Shape).size ax = 1 then 0 else ((ix2 (0 : Fin 1) b : (⟨2, ![1, n]⟩ : Shape).Idx) ((![1] : Fin 1 → Fin 2) ax)).val := fun ax =>
    match ax with
    | ⟨0, _⟩ => hb
  rw [broadcastInDim_apply _ g2 _ (ix2 a b) (ix2 (0 : Fin 1) b) hk2, broadcastInDim_apply _ g1 v (ix2 (0 : Fin 1) b) (ix1 b) hk1]

/-- An [m, 1] column repeated across the n columns, the host way, reads at (a, b) the column at row a. -/
theorem colSpread_apply {m n : ℕ} (w : (⟨2, ![m, 1]⟩ : Shape).Idx → α)
    (g2 : (⟨2, ![m, 1]⟩ : Shape).BroadcastsInDim ⟨2, ![m, n]⟩ ![0, 1]) (a : Fin m) (b : Fin n) :
    broadcastInDim ⟨2, ![m, n]⟩ ![0, 1] g2 w (ix2 a b) = w (ix2 a (0 : Fin 1)) := by
  have ha : a.val = if m = 1 then 0 else a.val := by
    split
    · have := a.isLt; omega
    · rfl
  have hk2 : ∀ ax : Fin 2, ((ix2 a (0 : Fin 1) : (⟨2, ![m, 1]⟩ : Shape).Idx) ax).val
      = if (⟨2, ![m, 1]⟩ : Shape).size ax = 1 then 0 else ((ix2 a b : (⟨2, ![m, n]⟩ : Shape).Idx) ((![0, 1] : Fin 2 → Fin 2) ax)).val := fun ax =>
    match ax with
    | ⟨0, _⟩ => ha
    | ⟨1, _⟩ => rfl
  rw [broadcastInDim_apply _ g2 _ (ix2 a b) (ix2 a (0 : Fin 1)) hk2]

/-- A length-m vector laid out as an [m, 1] column, the host way, reads at (a, 0) the vector at a. -/
theorem colLift_apply {m : ℕ} (v : (⟨1, ![m]⟩ : Shape).Idx → α)
    (g1 : (⟨1, ![m]⟩ : Shape).BroadcastsInDim ⟨2, ![m, 1]⟩ ![0]) (a : Fin m) :
    broadcastInDim ⟨2, ![m, 1]⟩ ![0] g1 v (ix2 a (0 : Fin 1)) = v (ix1 a) := by
  have ha : a.val = if m = 1 then 0 else a.val := by
    split
    · have := a.isLt; omega
    · rfl
  have hk1 : ∀ ax : Fin 1, ((ix1 a : (⟨1, ![m]⟩ : Shape).Idx) ax).val
      = if (⟨1, ![m]⟩ : Shape).size ax = 1 then 0 else ((ix2 a (0 : Fin 1) : (⟨2, ![m, 1]⟩ : Shape).Idx) ((![0] : Fin 1 → Fin 2) ax)).val := fun ax =>
    match ax with
    | ⟨0, _⟩ => ha
  rw [broadcastInDim_apply _ g1 v (ix2 a (0 : Fin 1)) (ix1 a) hk1]

/-- A vector as a column repeated across the columns, the host way, read at an entry. -/
theorem column_apply {m n : ℕ} (v : (⟨1, ![m]⟩ : Shape).Idx → α)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (broadcastInDim ⟨2, ![m, 1]⟩ ![0] g1 v) (ix2 a b) = v (ix1 a) := by
  rw [colSpread_apply, colLift_apply]

/-- Over row a, the index with column coordinate k inserted is (a, k). -/
theorem lift_row {m n : ℕ} (h : (⟨2, ![m, n]⟩ : Shape).Reduces [1] ⟨1, ![m]⟩) (a : Fin m)
    (k : Fin ((⟨2, ![m, n]⟩ : Shape).size 1)) :
    h.lift (ix1 a) k = ix2 a (k : Fin n) := by
  funext c
  apply Fin.ext
  rw [Shape.Reduces.lift_val]
  unfold Shape.Reduces.liftVal
  match c with
  | ⟨0, _⟩ => rfl
  | ⟨1, _⟩ => rfl

/-- The host's maximum over the column axis, at row a: the fold of max over the row's entries. -/
theorem hostRowMax_apply {m n : ℕ} (Z : FVec Ideal ⟨2, ![m, n]⟩ .f32) (init : BitVec 32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduce FloatOps.maximumf Z (constant ⟨0, ![]⟩ .f32 init) h' hu (ix1 a)
      = (Finset.univ : Finset (Fin n)).fold max (Ideal.ofBits .f32 init) (fun k => Z (ix2 a k)) := by
  rw [Host.reduce_eq_fold_single FloatOps.maximumf Z _ h' h hu (ix1 a)]
  have e : (Z ∘ h.lift (ix1 a)) = fun k : Fin n => Z (ix2 a k) := funext fun k => congrArg Z (lift_row h a k)
  rw [e]
  rfl

/-- The host's sum over the column axis from zero, at row a: the sum of the row's entries. -/
theorem hostRowSum_apply {m n : ℕ} (Z : FVec Ideal ⟨2, ![m, n]⟩ .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (a : Fin m) :
    Host.reduceAdd Z (constant ⟨0, ![]⟩ .f32 0x00000000#32) h' hu (ix1 a) = ∑ k : Fin n, Z (ix2 a k) := by
  show Ideal.hostReduceAdd h' Z (Ideal.ofBits .f32 0x00000000#32) (ix1 a) = _
  rw [Ideal.hostReduceAdd_single h' h, Ideal.ofBits_zero_f32, zero_add]
  exact Finset.sum_congr rfl fun k _ => congrArg Z (lift_row h a k)

/-- A vector maximum over the column axis, at row a: the fold of max over the row's entries. -/
theorem vecRowMax_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.maximumf.neutral .f32 hφ) (a : Fin m) :
    multiReduction .maximumf [1] ⟨1, ![m]⟩ Z acc h hφ hacc (ix1 a)
      = (Finset.univ : Finset (Fin n)).fold max (Ideal.ofBits .f32 acc) (fun k => Z (ix2 a k)) := by
  rw [Ideal.multiReduction_maximumf_single]
  have e : (Z ∘ h.lift (ix1 a)) = fun k : Fin n => Z (ix2 a k) := funext fun k => congrArg Z (lift_row h a k)
  rw [e]
  rfl

/-- A vector sum over the column axis, at row a: the sum of the row's entries. -/
theorem vecRowSum_apply {m n : ℕ} (Z : FVec Ideal ⟨2, ![m, n]⟩ .f32) (acc : BitVec 32)
    (h : (⟨2, ![m, n]⟩ : Shape).Reduces [1] ⟨1, ![m]⟩) (hφ : FKind.Formats .f32)
    (hacc : acc = FKind.add.neutral .f32 hφ) (a : Fin m) :
    multiReduction .add [1] ⟨1, ![m]⟩ Z acc h hφ hacc (ix1 a) = ∑ k : Fin n, Z (ix2 a k) := by
  rw [Ideal.multiReduction_add_single]
  exact Finset.sum_congr rfl fun k _ => congrArg Z (lift_row h a k)

/-- The largest entry of a row (from -∞, kept as its f32 word). -/
def rowMax {n : ℕ} (y : Fin n → EReal) : EReal :=
  (Finset.univ : Finset (Fin n)).fold max (Ideal.ofBits .f32 0xFF800000#32) y

/-- The logarithm of the softmax of one row, at column q. -/
def logSoftmaxRow {n : ℕ} (y : Fin n → EReal) (q : Fin n) : EReal :=
  (y q - rowMax y) - Ideal.log (∑ k : Fin n, Ideal.exp (y k - rowMax y))

/-- The f32 word of -∞ is neutral for the maximum of extended reals. -/
theorem max_neg_inf (z : EReal) : max (Ideal.ofBits .f32 0xFF800000#32) z = z := by
  have hb : Ideal.ofBits .f32 0xFF800000#32 = (⊥ : EReal) := by simp [Ideal.ofBits, Ideal.ieee]
  rw [hb]; exact max_bot_left z

/-- The host's log-softmax over the column axis: the row maximum from -∞ (and once more against -∞), subtracted;
    the exponentials summed from zero; the logarithm of the sum subtracted. -/
def hostLogSoftmax {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (hu : 0 < (⟨0, ![]⟩ : Shape).numel)
    (Z : FVec Ideal ⟨2, ![m, n]⟩ .f32) : FVec Ideal ⟨2, ![m, n]⟩ .f32 :=
  subf
    (subf Z (broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu)))))
    (broadcastInDim ⟨2, ![m, n]⟩ ![0, 1] g2 (Host.log (broadcastInDim ⟨2, ![m, 1]⟩ ![0] g1
      (Host.reduceAdd
        (Host.exp (subf Z (broadcastInDim ⟨2, ![m, n]⟩ ![0, 1] g2 (broadcastInDim ⟨2, ![m, 1]⟩ ![0] g1
          (maximumf (broadcastInDim ⟨1, ![m]⟩ ![] gN (constant (F := Ideal) ⟨0, ![]⟩ .f32 0xFF800000#32))
            (Host.reduce FloatOps.maximumf Z (constant (F := Ideal) ⟨0, ![]⟩ .f32 0xFF800000#32) h' hu))))))
        (constant (F := Ideal) ⟨0, ![]⟩ .f32 0x00000000#32) h' hu))))

/-- The maximum the host subtracts, repeated across the columns, reads at (a, b) the largest entry of row a. -/
theorem hostShift_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    broadcastInDim ⟨2, ![m, n]⟩ ![0, 1] g2 (broadcastInDim ⟨2, ![m, 1]⟩ ![0] g1
      (maximumf (broadcastInDim ⟨1, ![m]⟩ ![] gN (constant (F := Ideal) ⟨0, ![]⟩ .f32 0xFF800000#32))
        (Host.reduce FloatOps.maximumf Z (constant (F := Ideal) ⟨0, ![]⟩ .f32 0xFF800000#32) h' hu))) (ix2 a b)
      = rowMax (fun k => Z (ix2 a k)) := by
  rw [column_apply]
  show max (Ideal.ofBits .f32 0xFF800000#32)
      (Host.reduce FloatOps.maximumf Z (constant (F := Ideal) ⟨0, ![]⟩ .f32 0xFF800000#32) h' hu (ix1 a)) = _
  rw [max_neg_inf, hostRowMax_apply Z _ h' h hu a]
  rfl

/-- The logarithm of a column vector, taken on the [m, 1] column and then repeated across the columns, reads at
    (a, b) the logarithm of the vector at a. -/
theorem logColumn_apply {m n : ℕ} (S : FVec Ideal ⟨1, ![m]⟩ .f32)
    (g1 : (⟨1, ![m]⟩ : Shape).BroadcastsInDim ⟨2, ![m, 1]⟩ ![0])
    (g2 : (⟨2, ![m, 1]⟩ : Shape).BroadcastsInDim ⟨2, ![m, n]⟩ ![0, 1]) (a : Fin m) (b : Fin n) :
    broadcastInDim ⟨2, ![m, n]⟩ ![0, 1] g2 (Host.log (broadcastInDim ⟨2, ![m, 1]⟩ ![0] g1 S)) (ix2 a b)
      = Ideal.log (S (ix1 a)) := by
  rw [colSpread_apply]
  show Ideal.log (broadcastInDim ⟨2, ![m, 1]⟩ ![0] g1 S (ix2 a (0 : Fin 1))) = _
  rw [colLift_apply]

/-- The host's log-softmax reads, at (a, b), the log-softmax of row a at column b. -/
theorem hostLogSoftmax_apply {m n : ℕ} (gN : (⟨0, ![]⟩ : Shape).BroadcastsInDim ⟨1, ![m]⟩ ![])
    (g1 : (⟨1, ![m]⟩ : Shape).BroadcastsInDim ⟨2, ![m, 1]⟩ ![0])
    (g2 : (⟨2, ![m, 1]⟩ : Shape).BroadcastsInDim ⟨2, ![m, n]⟩ ![0, 1])
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (Z : FVec Ideal ⟨2, ![m, n]⟩ .f32) (a : Fin m) (b : Fin n) :
    hostLogSoftmax gN g1 g2 h' hu Z (ix2 a b) = logSoftmaxRow (fun k => Z (ix2 a k)) b := by
  unfold hostLogSoftmax logSoftmaxRow
  show (Z (ix2 a b) - _) - _ = _
  rw [hostShift_apply gN g1 g2 h' h hu Z a b, logColumn_apply, hostRowSum_apply _ h' h hu a]
  refine congrArg (fun s => (Z (ix2 a b) - rowMax (fun k => Z (ix2 a k))) - Ideal.log s) ?_
  refine Finset.sum_congr rfl fun k _ => ?_
  show Ideal.exp (Z (ix2 a k) - _) = _
  rw [hostShift_apply gN g1 g2 h' h hu Z a k]

/-- The host's sum of an array and a bias row, clamped below at zero, at an entry. -/
theorem hostBiasRelu_apply {m n : ℕ} (Z : FVec Ideal ⟨2, ![m, n]⟩ .f32) (v : FVec Ideal ⟨1, ![n]⟩ .f32)
    (g1 : (⟨1, ![n]⟩ : Shape).BroadcastsInDim ⟨2, ![1, n]⟩ ![1])
    (g2 : (⟨2, ![1, n]⟩ : Shape).BroadcastsInDim ⟨2, ![m, n]⟩ ![0, 1])
    (g0 : (⟨0, ![]⟩ : Shape).BroadcastsInDim ⟨2, ![m, n]⟩ ![]) (a : Fin m) (b : Fin n) :
    maximumf (addf Z (broadcastInDim ⟨2, ![m, n]⟩ ![0, 1] g2 (broadcastInDim ⟨2, ![1, n]⟩ ![1] g1 v)))
        (broadcastInDim ⟨2, ![m, n]⟩ ![] g0 (constant (F := Ideal) ⟨0, ![]⟩ .f32 0x00000000#32)) (ix2 a b)
      = max (Z (ix2 a b) + v (ix1 b)) (Ideal.ofBits .f32 0x00000000#32) := by
  show max (Z (ix2 a b) + broadcastInDim ⟨2, ![m, n]⟩ ![0, 1] g2 (broadcastInDim ⟨2, ![1, n]⟩ ![1] g1 v) (ix2 a b)) _ = _
  rw [biasRow_apply]
  rfl

end Cert.RowWise

end
-- ==== Proof.LibBlockRows.lean ====
/-
  What a block of rows computes, read at an entry, on the extended reals.

  A block is an [m, n] array of rows cut out of a longer array. Three computations on a block:
  * the plain product of an [m, k] block with a [k, n] matrix, accumulated into zero, both operands first narrowed to
    a shorter float format (the identity on exact values): entry (p, q) is Σ_c x0(p, c) · x1(c, q) (`narrowedMatmul_apply`);
  * a one-row matrix repeated down the block and added, entry (p, q) being x0(p, q) + x1(0, q) (`biasBlock_apply`), and
    the same clamped below at zero (`biasReluBlock_apply`);
  * the vector chain of a log-softmax along the rows — the row maximum from -∞ laid out as a column and subtracted, the
    exponentials summed from zero, the logarithm of the column of sums subtracted —, entry (p, q) being the log-softmax
    of row p at column q (`vecLogSoftmax_apply`).
  Each entry depends on row p of the block alone, which is why a block of an array computes the array's rows.
-/
import Idealize.ShloMosaic.PureOps.Ideal.Laws
import Idealize.ShloMosaic.Lib.ValueIdx
import Idealize.ShloMosaic.Lib.ValueLayout
import Idealize.ShloMosaic.Lib.Pipeline.Value
import proofs.«123790_j70909910057300_1_alg».proof.Proof.LibPlainMatmul
import proofs.«123790_j70909910057300_1_alg».proof.Proof.LibColumnCast
import proofs.«123790_j70909910057300_1_alg».proof.Proof.LibColumnBroadcast
import proofs.«123790_j70909910057300_1_alg».proof.Proof.LibRowWise

noncomputable section

open scoped BigOperators

namespace Cert.BlockRows

open Idealize.ShloMosaic Idealize.ShloMosaic.ValueIdx Cert.RowWise

/-- Narrowing both operands changes no exact value: the product into zero reads Σ_c x0(p, c) · x1(c, q). -/
theorem narrowedMatmul_apply {m k n : ℕ} (x0 : FVec Ideal ⟨2, ![m, k]⟩ .f32) (x1 : FVec Ideal ⟨2, ![k, n]⟩ .f32)
    (ht : FTy.bf16.bits < FTy.f32.bits) (p : Fin m) (q : Fin n) :
    matmul (DotDims.plain m k n) none (truncf .bf16 x0 ht : FVec Ideal ⟨2, ![m, k]⟩ .bf16)
        (truncf .bf16 x1 ht : FVec Ideal ⟨2, ![k, n]⟩ .bf16) (constant ⟨2, ![m, n]⟩ .f32 0x00000000#32) (ix2 p q)
      = ∑ c : Fin k, x0 (ix2 p c) * x1 (ix2 c q) :=
  matmul_plain_zero_apply none _ _ p q

/-- A one-row matrix repeated down the block and added to it, at an entry. -/
theorem biasBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    addf (shapeCast ⟨2, ![m, n]⟩ x0 hc0) (broadcastTo ⟨2, ![m, n]⟩ (shapeCast ⟨2, ![1, n]⟩ x1 hc1) hb) (ix2 p q)
      = x0 (ix2 p q) + x1 (ix2 (0 : Fin 1) q) := by
  rw [shapeCast_self, shapeCast_self]
  show x0 (ix2 p q) + broadcastTo ⟨2, ![m, n]⟩ x1 hb (ix2 p q) = _
  rw [broadcastTo_1b_ab_apply]

/-- The same, clamped below at zero (zero kept as the all-zero f32 word). -/
theorem biasReluBlock_apply {m n : ℕ} (x0 : FVec Ideal ⟨2, ![m, n]⟩ .f32) (x1 : FVec Ideal ⟨2, ![1, n]⟩ .f32)
    (hc0 : (⟨2, ![m, n]⟩ : Shape).ShapeCasts ⟨2, ![m, n]⟩) (hc1 : (⟨2, ![1, n]⟩ : Shape).ShapeCasts ⟨2, ![1, n]⟩)
    (hb : (⟨2, ![1, n]⟩ : Shape).Broadcasts ⟨2, ![m, n]⟩) (p : Fin m) (q : Fin n) :
    maximumf (addf (shapeCast ⟨2, ![m, n]⟩ x0 hc0) (broadcastTo ⟨2, ![m, n]⟩ (shapeCast ⟨2, ![1, n]⟩ x1 hc1) hb))
        (broadcast ⟨2, ![m, n]⟩ (Scalar.ofBits .f32 0x00000000#32 : Ideal .f32)) (ix2 p q)
      = max (x0 (ix2 p q) + x1 (ix2 (0 : Fin 1) q)) (Ideal.ofBits .f32 0x00000000#32) := by
  show max (addf (shapeCast ⟨2, ![m, n]⟩ x0 hc0) (broadcastTo ⟨2, ![m, n]⟩ (shapeCast ⟨2, ![1, n]⟩ x1 hc1) hb) (ix2 p q)) _ = _
  rw [biasBlock_apply]
  rfl

/-- The vector log-softmax chain along the rows of Y reads, at (p, q), the log-softmax of row p at column q. -/
theorem vecLogSoftmax_apply {m n : ℕ} (Y : FVec Ideal ⟨2, ![m, n]⟩ .f32)
    (h : (⟨2, ![m, n]⟩ : Shape).Reduces [1] ⟨1, ![m]⟩) (hφ : FKind.Formats .f32)
    (hmax : (0xFF800000#32 : BitVec 32) = FKind.maximumf.neutral .f32 hφ)
    (hadd : (0x00000000#32 : BitVec 32) = FKind.add.neutral .f32 hφ)
    (hcol : (⟨1, ![m]⟩ : Shape).ShapeCasts ⟨2, ![m, 1]⟩) (hsp : (⟨2, ![m, 1]⟩ : Shape).Broadcasts ⟨2, ![m, n]⟩)
    (p : Fin m) (q : Fin n) :
    subf
        (subf Y (broadcastTo ⟨2, ![m, n]⟩ (shapeCast ⟨2, ![m, 1]⟩
          (multiReduction .maximumf [1] ⟨1, ![m]⟩ Y 0xFF800000#32 h hφ hmax) hcol) hsp))
        (broadcastTo ⟨2, ![m, n]⟩ (log (shapeCast ⟨2, ![m, 1]⟩
          (multiReduction .add [1] ⟨1, ![m]⟩
            (exp (subf Y (broadcastTo ⟨2, ![m, n]⟩ (shapeCast ⟨2, ![m, 1]⟩
              (multiReduction .maximumf [1] ⟨1, ![m]⟩ Y 0xFF800000#32 h hφ hmax) hcol) hsp)))
            0x00000000#32 h hφ hadd) hcol)) hsp) (ix2 p q)
      = logSoftmaxRow (fun k => Y (ix2 p k)) q := by
  have hshift : ∀ b : Fin n, broadcastTo ⟨2, ![m, n]⟩ (shapeCast ⟨2, ![m, 1]⟩
      (multiReduction .maximumf [1] ⟨1, ![m]⟩ Y 0xFF800000#32 h hφ hmax) hcol) hsp (ix2 p b)
        = rowMax (fun k => Y (ix2 p k)) := fun b => by
    rw [Cert.LibColumnBroadcast.broadcastTo_a1_ab_apply, Cert.LibColumnCast.shapeCast_a_a1_apply, vecRowMax_apply]
    rfl
  unfold logSoftmaxRow
  show (Y (ix2 p q) - _) - _ = _
  rw [hshift q, Cert.LibColumnBroadcast.broadcastTo_a1_ab_apply]
  show _ - Ideal.log (shapeCast ⟨2, ![m, 1]⟩ (multiReduction .add [1] ⟨1, ![m]⟩
      (exp (subf Y (broadcastTo ⟨2, ![m, n]⟩ (shapeCast ⟨2, ![m, 1]⟩
        (multiReduction .maximumf [1] ⟨1, ![m]⟩ Y 0xFF800000#32 h hφ hmax) hcol) hsp)))
      0x00000000#32 h hφ hadd) hcol (ix2 p (0 : Fin 1))) = _
  rw [Cert.LibColumnCast.shapeCast_a_a1_apply, vecRowSum_apply]
  refine congrArg (fun s => (Y (ix2 p q) - rowMax (fun k => Y (ix2 p k))) - Ideal.log s) ?_
  refine Finset.sum_congr rfl fun k _ => ?_
  show Ideal.exp (Y (ix2 p k) - _) = _
  rw [hshift k]

end Cert.BlockRows

end
-- ==== Proof.LibSageLayer.lean ====
/-
  One mean-aggregation layer of a graph network, entry by entry, on the extended reals.

  A layer takes, for every node p, the sum a(p, ·) of its in-neighbours' features, the reciprocal d(p) of its
  in-degree (at least one), and its own features x(p, ·); with two weight matrices Wl, Wr and a bias b its output is

      out(p, q) = max( Σ_c (a(p, c) · d(p)) · Wl(c, q) + Σ_c x(p, c) · Wr(c, q) + b(q), 0 ).

  Two spellings of this value are read here at an entry. A block of rows computes it as two plain products into zero
  (operands narrowed to a shorter float format first, the identity on exact values), added, a one-row bias repeated
  down the block, a clamp at zero (`blockSage_apply`). The host computes it as a product, plus the bias row, plus the
  other product, clamped (`hostSage_eq`): the two differ by the order in which the bias and the second product are
  added, and addition of extended reals is commutative and associative, so no finiteness is needed.

  The network's last step contracts the layer's output with one weight column and adds a scalar:
  head(p) = Σ_j h(p, j) · w(j) + β (`blockHead_apply`: a lane sum of the products with a repeated row, laid out as a
  column; `hostHead_eq`: a host product with a one-column matrix plus the repeated scalar).
-/
import Idealize.ShloMosaic.PureOps.Ideal.Laws
import Idealize.ShloMosaic.Lib.ValueIdx
import Idealize.ShloMosaic.Lib.ValueLayout
import Idealize.ShloMosaic.Lib.Pipeline.Value
import proofs.«123790_j70909910057300_1_alg».proof.Proof.LibPlainMatmul
import proofs.«123790_j70909910057300_1_alg».proof.Proof.LibPlainDot
import proofs.«123790_j70909910057300_1_alg».proof.Proof.LibColumnBroadcast
import proofs.«123790_j70909910057300_1_alg».proof.Proof.LibColumnCast
import proofs.«123790_j70909910057300_1_alg».proof.Proof.LibRowWise
import proofs.«123790_j70909910057300_1_alg».proof.Proof.LibBlockRows

noncomputable section

open scoped BigOperators

namespace Cert.Sage

open Idealize.ShloMosaic Idealize.ShloMosaic.ValueIdx

/-- One entry of a layer from row p of the aggregated and own features, the reciprocal degree of p, column q of the
    two weight matrices and entry q of the bias. -/
def sageVal {k : ℕ} (a x : Fin k → EReal) (d : EReal) (wl wr : Fin k → EReal) (b : EReal) : EReal :=
  max (((∑ c : Fin k, (a c * d) * wl c) + ∑ c : Fin k, x c * wr c) + b) (Ideal.ofBits .f32 0x00000000#32)

/-- A whole layer: entry (p, q) from row p of A, D, X and column q of Wl, Wr, b. -/
def layerArr {N k n : ℕ} (A : (⟨2, ![N, k]⟩ : Shape).Idx → EReal) (D : (⟨2, ![N, 1]⟩ : Shape).Idx → EReal)
    (X : (⟨2, ![N, k]⟩ : Shape).Idx → EReal) (Wl Wr : (⟨2, ![k, n]⟩ : Shape).Idx → EReal) (b : Fin n → EReal) :
    (⟨2, ![N, n]⟩ : Shape).Idx → EReal := fun i =>
  sageVal (fun c => A (ix2 (i 0) c)) (fun c => X (ix2 (i 0) c)) (D (ix2 (i 0) (0 : Fin 1)))
    (fun c => Wl (ix2 c (i 1))) (fun c => Wr (ix2 c (i 1))) (b (i 1))

/-- The head: entry p is the contraction of row p of H with w, plus β. -/
def headArr {N k : ℕ} (H : (⟨2, ![N, k]⟩ : Shape).Idx → EReal) (w : Fin k → EReal) (β : EReal) :
    (⟨2, ![N, 1]⟩ : Shape).Idx → EReal := fun i => (∑ j : Fin k, H (ix2 (i 0) j) * w j) + β

/-- A layer of equal operands is the same layer. -/
theorem layerArr_congr {N k n : ℕ} {A A' : (⟨2, ![N, k]⟩ : Shape).Idx → EReal} {D D' : (⟨2, ![N, 1]⟩ : Shape).Idx → EReal}
    {X X' : (⟨2, ![N, k]⟩ : Shape).Idx → EReal} {Wl Wl' Wr Wr' : (⟨2, ![k, n]⟩ : Shape).Idx → EReal} {b b' : Fin n → EReal}
    (hA : A = A') (hD : D = D') (hX : X = X') (hWl : Wl = Wl') (hWr : Wr = Wr') (hb : b = b') :
    layerArr A D X Wl Wr b = layerArr A' D' X' Wl' Wr' b' := by
  subst hA hD hX hWl hWr hb; rfl

/-- A head of equal operands is the same head. -/
theorem headArr_congr {N k : ℕ} {H H' : (⟨2, ![N, k]⟩ : Shape).Idx → EReal} {w w' : Fin k → EReal} {β β' : EReal}
    (hH : H = H') (hw : w = w') (hβ : β = β') : headArr H w β = headArr H' w' β' := by
  subst hH hw hβ; rfl

/-- A block of rows computes the layer's entries of its rows. -/
theorem blockSage_apply {m k n : ℕ} (A : FVec Ideal ⟨2, ![m, k]⟩ .f32) (Dc : FVec Ideal ⟨2, ![m, 1]⟩ .f32)
    (X : FVec Ideal ⟨2, ![m, k]⟩ .f32) (Wl Wr : FVec Ideal ⟨2, ![k, n]⟩ .f32) (Br : FVec Ideal ⟨2, ![1, n]⟩ .f32)
    (hd : (⟨2, ![m, 1]⟩ : Shape).Broadcasts ⟨2, ![m, k]⟩) (hb : (⟨2, ![1, n]⟩ : Shape).Broadcasts ⟨2, ![m, n]⟩)
    (ht : FTy.bf16.bits < FTy.f32.bits) (p : Fin m) (q : Fin n) :
    maximumf
        (addf
          (addf
            (matmul (DotDims.plain m k n) none
              (truncf .bf16 (mulf A (broadcastTo ⟨2, ![m, k]⟩ Dc hd)) ht : FVec Ideal ⟨2, ![m, k]⟩ .bf16)
              (truncf .bf16 Wl ht : FVec Ideal ⟨2, ![k, n]⟩ .bf16) (constant ⟨2, ![m, n]⟩ .f32 0x00000000#32))
            (matmul (DotDims.plain m k n) none (truncf .bf16 X ht : FVec Ideal ⟨2, ![m, k]⟩ .bf16)
              (truncf .bf16 Wr ht : FVec Ideal ⟨2, ![k, n]⟩ .bf16) (constant ⟨2, ![m, n]⟩ .f32 0x00000000#32)))
          (broadcastTo ⟨2, ![m, n]⟩ Br hb))
        (broadcast ⟨2, ![m, n]⟩ (Scalar.ofBits .f32 0x00000000#32 : Ideal .f32)) (ix2 p q)
      = sageVal (fun c => A (ix2 p c)) (fun c => X (ix2 p c)) (Dc (ix2 p (0 : Fin 1)))
          (fun c => Wl (ix2 c q)) (fun c => Wr (ix2 c q)) (Br (ix2 (0 : Fin 1) q)) := by
  have h1 : matmul (DotDims.plain m k n) none
        (truncf .bf16 (mulf A (broadcastTo ⟨2, ![m, k]⟩ Dc hd)) ht : FVec Ideal ⟨2, ![m, k]⟩ .bf16)
        (truncf .bf16 Wl ht : FVec Ideal ⟨2, ![k, n]⟩ .bf16) (constant ⟨2, ![m, n]⟩ .f32 0x00000000#32) (ix2 p q)
      = ∑ c : Fin k, (A (ix2 p c) * Dc (ix2 p (0 : Fin 1))) * Wl (ix2 c q) := by
    rw [Cert.BlockRows.narrowedMatmul_apply]
    refine Finset.sum_congr rfl fun c _ => ?_
    show (A (ix2 p c) * broadcastTo ⟨2, ![m, k]⟩ Dc hd (ix2 p c)) * _ = _
    rw [Cert.LibColumnBroadcast.broadcastTo_a1_ab_apply]
  have h2 := Cert.BlockRows.narrowedMatmul_apply X Wr ht p q
  have h3 := broadcastTo_1b_ab_apply Br hb p q
  exact congrArg₂ max (congrArg₂ (· + ·) (congrArg₂ (· + ·) h1 h2) h3) rfl

/-- The host's spelling of a layer is the layer, entry by entry. -/
theorem hostSage_eq {N k n : ℕ} (A : FVec Ideal ⟨2, ![N, k]⟩ .f32) (D : FVec Ideal ⟨2, ![N, 1]⟩ .f32)
    (X : FVec Ideal ⟨2, ![N, k]⟩ .f32) (Wl Wr : FVec Ideal ⟨2, ![k, n]⟩ .f32) (b : FVec Ideal ⟨1, ![n]⟩ .f32)
    (gd : (⟨2, ![N, 1]⟩ : Shape).BroadcastsInDim ⟨2, ![N, k]⟩ ![0, 1])
    (g1 : (⟨1, ![n]⟩ : Shape).BroadcastsInDim ⟨2, ![1, n]⟩ ![1])
    (g2 : (⟨2, ![1, n]⟩ : Shape).BroadcastsInDim ⟨2, ![N, n]⟩ ![0, 1])
    (g0 : (⟨0, ![]⟩ : Shape).BroadcastsInDim ⟨2, ![N, n]⟩ ![]) :
    maximumf
        (addf
          (addf (Host.dotGeneral (DotDims.plain N k n) none (mulf A (broadcastInDim ⟨2, ![N, k]⟩ ![0, 1] gd D)) Wl)
            (broadcastInDim ⟨2, ![N, n]⟩ ![0, 1] g2 (broadcastInDim ⟨2, ![1, n]⟩ ![1] g1 b)))
          (Host.dotGeneral (DotDims.plain N k n) none X Wr))
        (broadcastInDim ⟨2, ![N, n]⟩ ![] g0 (constant (F := Ideal) ⟨0, ![]⟩ .f32 0x00000000#32))
      = layerArr A D X Wl Wr (fun q => b (ix1 q)) := by
  funext i
  obtain ⟨a, q, rfl⟩ : ∃ (a : Fin N) (q : Fin n), i = ix2 a q := ⟨i 0, i 1, eq_ix2 i⟩
  have h1 : Host.dotGeneral (DotDims.plain N k n) none (mulf A (broadcastInDim ⟨2, ![N, k]⟩ ![0, 1] gd D)) Wl (ix2 a q)
      = ∑ c : Fin k, (A (ix2 a c) * D (ix2 a (0 : Fin 1))) * Wl (ix2 c q) := by
    rw [hostDotGeneral_plain_apply]
    refine Finset.sum_congr rfl fun c _ => ?_
    show (A (ix2 a c) * broadcastInDim ⟨2, ![N, k]⟩ ![0, 1] gd D (ix2 a c)) * _ = _
    rw [Cert.RowWise.colSpread_apply]
  have h2 := hostDotGeneral_plain_apply none X Wr a q
  have h3 := Cert.RowWise.biasRow_apply b g1 g2 a q
  show _ = max (((∑ c : Fin k, (A (ix2 a c) * D (ix2 a (0 : Fin 1))) * Wl (ix2 c q)) + ∑ c : Fin k, X (ix2 a c) * Wr (ix2 c q))
      + b (ix1 q)) (Ideal.ofBits .f32 0x00000000#32)
  refine (congrArg₂ max (congrArg₂ (· + ·) (congrArg₂ (· + ·) h1 h3) h2) rfl).trans ?_
  exact congrArg (fun s => max s (Ideal.ofBits .f32 0x00000000#32)) (add_right_comm _ _ _)

/-- A block of rows computes the head of its rows: the products with a repeated weight row summed along the lanes,
    laid out as a column, plus a repeated scalar. -/
theorem blockHead_apply {m k : ℕ} (H : FVec Ideal ⟨2, ![m, k]⟩ .f32) (wrow : FVec Ideal ⟨2, ![1, k]⟩ .f32)
    (bl : FVec Ideal ⟨2, ![1, 1]⟩ .f32)
    (hw : (⟨2, ![1, k]⟩ : Shape).Broadcasts ⟨2, ![m, k]⟩) (hbb : (⟨2, ![1, 1]⟩ : Shape).Broadcasts ⟨2, ![m, 1]⟩)
    (hred : (⟨2, ![m, k]⟩ : Shape).Reduces [1] ⟨1, ![m]⟩) (hφ : FKind.Formats .f32)
    (hacc : (0x00000000#32 : BitVec 32) = FKind.add.neutral .f32 hφ)
    (hcol : (⟨1, ![m]⟩ : Shape).ShapeCasts ⟨2, ![m, 1]⟩) (p : Fin m) (u : Fin 1) :
    addf
        (shapeCast ⟨2, ![m, 1]⟩
          (multiReduction .add [1] ⟨1, ![m]⟩ (mulf H (broadcastTo ⟨2, ![m, k]⟩ wrow hw)) 0x00000000#32 hred hφ hacc) hcol)
        (broadcastTo ⟨2, ![m, 1]⟩ bl hbb) (ix2 p u)
      = (∑ j : Fin k, H (ix2 p j) * wrow (ix2 (0 : Fin 1) j)) + bl (ix2 (0 : Fin 1) (0 : Fin 1)) := by
  obtain rfl : u = 0 := Subsingleton.elim _ _
  have h1 : shapeCast ⟨2, ![m, 1]⟩
        (multiReduction .add [1] ⟨1, ![m]⟩ (mulf H (broadcastTo ⟨2, ![m, k]⟩ wrow hw)) 0x00000000#32 hred hφ hacc) hcol
        (ix2 p (0 : Fin 1))
      = ∑ j : Fin k, H (ix2 p j) * wrow (ix2 (0 : Fin 1) j) := by
    rw [Cert.LibColumnCast.shapeCast_a_a1_apply, Cert.RowWise.vecRowSum_apply]
    refine Finset.sum_congr rfl fun j _ => ?_
    show H (ix2 p j) * broadcastTo ⟨2, ![m, k]⟩ wrow hw (ix2 p j) = _
    rw [broadcastTo_1b_ab_apply]
  have h2 := broadcastTo_1b_ab_apply bl hbb p (0 : Fin 1)
  exact congrArg₂ (· + ·) h1 h2

/-- The host's spelling of the head is the head, entry by entry. -/
theorem hostHead_eq {N k : ℕ} (H : FVec Ideal ⟨2, ![N, k]⟩ .f32) (Wc : FVec Ideal ⟨2, ![k, 1]⟩ .f32)
    (bl : FVec Ideal ⟨1, ![1]⟩ .f32)
    (g1 : (⟨1, ![1]⟩ : Shape).BroadcastsInDim ⟨2, ![1, 1]⟩ ![1])
    (g2 : (⟨2, ![1, 1]⟩ : Shape).BroadcastsInDim ⟨2, ![N, 1]⟩ ![0, 1]) :
    addf (Host.dotGeneral (DotDims.plain N k 1) none H Wc)
        (broadcastInDim ⟨2, ![N, 1]⟩ ![0, 1] g2 (broadcastInDim ⟨2, ![1, 1]⟩ ![1] g1 bl))
      = headArr H (fun j => Wc (ix2 j (0 : Fin 1))) (bl (ix1 (0 : Fin 1))) := by
  funext i
  obtain ⟨a, q, rfl⟩ : ∃ (a : Fin N) (q : Fin 1), i = ix2 a q := ⟨i 0, i 1, eq_ix2 i⟩
  obtain rfl : q = 0 := Subsingleton.elim _ _
  have h1 := hostDotGeneral_plain_apply none H Wc a (0 : Fin 1)
  have h2 := Cert.RowWise.biasRow_apply bl g1 g2 a (0 : Fin 1)
  exact congrArg₂ (· + ·) h1 h2

end Cert.Sage

end
-- ==== Proof.Blocks0.lean ====
/-
  Region 0: what its row blocks write back, and the array they tile.

  The region's grid has ten points; point t works on rows 5000·t … 5000·t + 4999 of the aggregated features, of the
  reciprocal degrees and of the node features, with the two weight matrices and the bias row whole at every point. Its body
  computes one layer on those rows, and a layer's entry (p, q) depends on row p alone, so block t of the result is rows
  5000·t … of the whole layer, and the ten blocks cover every row.
-/
import proofs.«123790_j70909910057300_1_alg».proof.Proof.Gen.KernelIdeal.Frame
import proofs.«123790_j70909910057300_1_alg».proof.Proof.LibSageLayer

set_option maxRecDepth 16384

noncomputable section

open scoped BigOperators

namespace Cert.KernelIdeal.Blocks0

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the layer's entry from row p of the loaded blocks. -/
theorem pay_apply (v0 : Vec Ideal S5000x2 .f32) (v2 : Vec Ideal S5000x1 .f32) (v6 : Vec Ideal S5000x2 .f32)
    (v8 v10 : Vec Ideal S2x32 .f32) (v12 : Vec Ideal S1x32 .f32) (p : Fin 5000) (q : Fin 32) :
    k0_pay1 (F := Ideal) v0 v2 v6 v8 v10 v12 (ix2 p q)
      = sageVal (fun c => v0 (ix2 p c)) (fun c => v6 (ix2 p c)) (v2 (ix2 p (0 : Fin 1)))
          (fun c => v8 (ix2 c q)) (fun c => v10 (ix2 c q)) (v12 (ix2 (0 : Fin 1) q)) := by
  unfold k0_pay1
  refine (blockSage_apply _ _ _ _ _ _ _ _ _ p q).trans ?_
  simp only [shapeCast_self]

/-- The printed index maps over the grid: the three row windows and the output move down one block per point. -/
theorem idx_facts : ∀ t : Fin cfg0.N, win0_0.index t (0 : Fin 2) = t.val ∧ win0_1.index t (0 : Fin 2) = t.val
    ∧ win0_2.index t (0 : Fin 2) = t.val ∧ win0_6.index t (0 : Fin 2) = t.val
    ∧ win0_3.index t (0 : Fin 2) = 0 ∧ win0_4.index t (0 : Fin 2) = 0 ∧ win0_5.index t (0 : Fin 2) = 0 :=
  (by decide +kernel : ∀ t : Fin grid0.N, _)

/-- No window moves along the columns. -/
theorem idx_cols : ∀ t : Fin cfg0.N, win0_0.index t (1 : Fin 2) = 0 ∧ win0_1.index t (1 : Fin 2) = 0
    ∧ win0_2.index t (1 : Fin 2) = 0 ∧ win0_3.index t (1 : Fin 2) = 0 ∧ win0_4.index t (1 : Fin 2) = 0
    ∧ win0_5.index t (1 : Fin 2) = 0 ∧ win0_6.index t (1 : Fin 2) = 0 :=
  (by decide +kernel : ∀ t : Fin grid0.N, _)

/-- Block t of window 0 is rows 5000·t … 5000·t + 4999 of its array. -/
theorem blk0_apply (c : Dev nD) (t : Fin cfg0.N) (x : S5000x2.Idx) (k : S50000x2.Idx)
    (hk0 : (k 0).val = t.val * 5000 + (x 0).val) (hk1 : (k 1).val = (x 1).val) :
    (iblk0 V c 0 t : Vec Ideal S5000x2 .f32) x = (V c main_v22 : S50000x2.Idx → Elt Ideal .f32) k := by
  have e0 : win0_0.index t (0 : Fin 2) = t.val := (idx_facts t).1
  have e1 : win0_0.index t (1 : Fin 2) = 0 := (idx_cols t).1
  unfold iblk0
  rw [View.read_apply]
  show V c main_v22 _ = V c main_v22 _
  congr 1
  funext a; apply Fin.ext
  match a with
  | ⟨0, _⟩ => show win0_0.index t 0 * 5000 + 1 * (x 0).val = (k 0).val; rw [e0, hk0]; omega
  | ⟨1, _⟩ => show win0_0.index t 1 * 2 + 1 * (x 1).val = (k 1).val; rw [e1, hk1]; omega

/-- Block t of window 1 is rows 5000·t … 5000·t + 4999 of its array. -/
theorem blk1_apply (c : Dev nD) (t : Fin cfg0.N) (x : S5000x1.Idx) (k : S50000x1.Idx)
    (hk0 : (k 0).val = t.val * 5000 + (x 0).val) (hk1 : (k 1).val = (x 1).val) :
    (iblk0 V c 1 t : Vec Ideal S5000x1 .f32) x = (V c main_v12 : S50000x1.Idx → Elt Ideal .f32) k := by
  have e0 : win0_1.index t (0 : Fin 2) = t.val := (idx_facts t).2.1
  have e1 : win0_1.index t (1 : Fin 2) = 0 := (idx_cols t).2.1
  unfold iblk0
  rw [View.read_apply]
  show V c main_v12 _ = V c main_v12 _
  congr 1
  funext a; apply Fin.ext
  match a with
  | ⟨0, _⟩ => show win0_1.index t 0 * 5000 + 1 * (x 0).val = (k 0).val; rw [e0, hk0]; omega
  | ⟨1, _⟩ => show win0_1.index t 1 * 1 + 1 * (x 1).val = (k 1).val; rw [e1, hk1]; omega

/-- Block t of window 2 is rows 5000·t … 5000·t + 4999 of its array. -/
theorem blk2_apply (c : Dev nD) (t : Fin cfg0.N) (x : S5000x2.Idx) (k : S50000x2.Idx)
    (hk0 : (k 0).val = t.val * 5000 + (x 0).val) (hk1 : (k 1).val = (x 1).val) :
    (iblk0 V c 2 t : Vec Ideal S5000x2 .f32) x = (V c main_arg0 : S50000x2.Idx → Elt Ideal .f32) k := by
  have e0 : win0_2.index t (0 : Fin 2) = t.val := (idx_facts t).2.2.1
  have e1 : win0_2.index t (1 : Fin 2) = 0 := (idx_cols t).2.2.1
  unfold iblk0
  rw [View.read_apply]
  show V c main_arg0 _ = V c main_arg0 _
  congr 1
  funext a; apply Fin.ext
  match a with
  | ⟨0, _⟩ => show win0_2.index t 0 * 5000 + 1 * (x 0).val = (k 0).val; rw [e0, hk0]; omega
  | ⟨1, _⟩ => show win0_2.index t 1 * 2 + 1 * (x 1).val = (k 1).val; rw [e1, hk1]; omega

/-- Window 3's one block is its whole array, at every point. -/
theorem blk3_apply (c : Dev nD) (t : Fin cfg0.N) (x : S2x32.Idx) :
    (iblk0 V c 3 t : Vec Ideal S2x32 .f32) x = (V c main_arg2 : S2x32.Idx → Elt Ideal .f32) x := by
  have e0 : win0_3.index t (0 : Fin 2) = 0 := (idx_facts t).2.2.2.2.1
  have e1 : win0_3.index t (1 : Fin 2) = 0 := (idx_cols t).2.2.2.1
  unfold iblk0
  rw [View.read_apply]
  show V c main_arg2 _ = V c main_arg2 _
  congr 1
  funext a; apply Fin.ext
  match a with
  | ⟨0, _⟩ => show win0_3.index t 0 * 2 + 1 * (x 0).val = (x 0).val; rw [e0]; omega
  | ⟨1, _⟩ => show win0_3.index t 1 * 32 + 1 * (x 1).val = (x 1).val; rw [e1]; omega

/-- Window 4's one block is its whole array, at every point. -/
theorem blk4_apply (c : Dev nD) (t : Fin cfg0.N) (x : S1x32.Idx) :
    (iblk0 V c 4 t : Vec Ideal S1x32 .f32) x = (V c main_v23 : S1x32.Idx → Elt Ideal .f32) x := by
  have e0 : win0_4.index t (0 : Fin 2) = 0 := (idx_facts t).2.2.2.2.2.1
  have e1 : win0_4.index t (1 : Fin 2) = 0 := (idx_cols t).2.2.2.2.1
  unfold iblk0
  rw [View.read_apply]
  show V c main_v23 _ = V c main_v23 _
  congr 1
  funext a; apply Fin.ext
  match a with
  | ⟨0, _⟩ => show win0_4.index t 0 * 1 + 1 * (x 0).val = (x 0).val; rw [e0]; omega
  | ⟨1, _⟩ => show win0_4.index t 1 * 32 + 1 * (x 1).val = (x 1).val; rw [e1]; omega

/-- Window 5's one block is its whole array, at every point. -/
theorem blk5_apply (c : Dev nD) (t : Fin cfg0.N) (x : S2x32.Idx) :
    (iblk0 V c 5 t : Vec Ideal S2x32 .f32) x = (V c main_arg4 : S2x32.Idx → Elt Ideal .f32) x := by
  have e0 : win0_5.index t (0 : Fin 2) = 0 := (idx_facts t).2.2.2.2.2.2
  have e1 : win0_5.index t (1 : Fin 2) = 0 := (idx_cols t).2.2.2.2.2.1
  unfold iblk0
  rw [View.read_apply]
  show V c main_arg4 _ = V c main_arg4 _
  congr 1
  funext a; apply Fin.ext
  match a with
  | ⟨0, _⟩ => show win0_5.index t 0 * 2 + 1 * (x 0).val = (x 0).val; rw [e0]; omega
  | ⟨1, _⟩ => show win0_5.index t 1 * 32 + 1 * (x 1).val = (x 1).val; rw [e1]; omega

/-- The whole layer this region computes, from the arrays as the region finds them. -/
abbrev G (c : Dev nD) : S50000x32.Idx → Elt Ideal .f32 :=
  layerArr (N := 50000) (k := 2) (n := 32) (V c main_v22 : S50000x2.Idx → Elt Ideal .f32)
    (V c main_v12 : S50000x1.Idx → Elt Ideal .f32) (V c main_arg0 : S50000x2.Idx → Elt Ideal .f32)
    (V c main_arg2 : S2x32.Idx → Elt Ideal .f32) (V c main_arg4 : S2x32.Idx → Elt Ideal .f32)
    (fun q => (V c main_v23 : S1x32.Idx → Elt Ideal .f32) (ix2 (0 : Fin 1) q))

/-- What point t computes at entry (p, q) of its block is the layer at row 5000·t + p. -/
theorem body_at (c : Dev nD) (t : Fin cfg0.N) (p : Fin 5000) (q : Fin 32) (i : S50000x32.Idx)
    (hi0 : (i 0).val = t.val * 5000 + p.val) (hi1 : (i 1).val = q.val) :
    k0_pay1 (F := Ideal) (iblk0 V c 0 t) (iblk0 V c 1 t) (iblk0 V c 2 t) (iblk0 V c 3 t) (iblk0 V c 5 t) (iblk0 V c 4 t) (ix2 p q)
      = G V c i := by
  refine (pay_apply _ _ _ _ _ _ p q).trans ?_
  have hq : (i 1 : Fin 32) = q := Fin.ext hi1
  show _ = sageVal _ _ _ _ _ _
  congr 1
  · funext c'; exact blk0_apply V c t _ _ hi0 rfl
  · funext c'; exact blk2_apply V c t _ _ hi0 rfl
  · exact blk1_apply V c t _ _ hi0 rfl
  · funext c'; rw [blk3_apply, hq]
  · funext c'; rw [blk5_apply, hq]
  · rw [blk4_apply, hq]

/-- What point t writes back is block t of the layer. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S5000x2) hz, View.ld_unit_zero (S := S5000x1) hz, View.ld_unit_zero (S := S2x32) hz, View.ld_unit_zero (S := S1x32) hz]
  have key : ∀ j : S5000x32.Idx, k0_pay1 (F := Ideal) (iblk0 V c 0 t) (iblk0 V c 1 t) (iblk0 V c 2 t) (iblk0 V c 3 t) (iblk0 V c 5 t) (iblk0 V c 4 t) j
      = G V c (((cfg0.win 6).blk t).view.emb j) := fun j => by
    obtain ⟨p, q, rfl⟩ : ∃ (p : Fin 5000) (q : Fin 32), j = ix2 p q := ⟨j 0, j 1, eq_ix2 j⟩
    have e0 : win0_6.index t (0 : Fin 2) = t.val := (idx_facts t).2.2.2.1
    have e1 : win0_6.index t (1 : Fin 2) = 0 := (idx_cols t).2.2.2.2.2.2
    refine body_at V c t p q _ ?_ ?_
    · show win0_6.index t 0 * 5000 + 1 * p.val = _; rw [e0]; omega
    · show win0_6.index t 1 * 32 + 1 * q.val = _; rw [e1]; omega
  funext j
  exact key j

/-- An index of the array is in point t's block iff each coordinate is in the block's range on its axis. -/
theorem mem_blk (t : Fin cfg0.N) (i : S50000x32.Idx) :
    i ∈ ((cfg0.win 6).blk t).view.set ↔ ∀ a : Fin 2, win0_6.index t a * S5000x32.size a ≤ (i a).val ∧ (i a).val < win0_6.index t a * S5000x32.size a + S5000x32.size a := by
  show i ∈ ((View.whole main_v24).slice (win0_6.rect t)).set ↔ _
  rw [View.set_slice_whole, Rect.mem_set_unit]
  exact Iff.rfl

/-- Row r of the array lies in the block of point r / 5000. -/
theorem cover (i : S50000x32.Idx) : ∃ t : Fin cfg0.N, (cfg0.win 6).flush t = true ∧ i ∈ ((cfg0.win 6).blk t).view.set := by
  have hi0 : (i 0).val < 50000 := (i 0).isLt
  have hi1 : (i 1).val < 32 := (i 1).isLt
  have hN : cfg0.N = 10 := N_0
  let t : Fin cfg0.N := ⟨(i 0).val / 5000, by rw [hN]; omega⟩
  have e0 : win0_6.index t (0 : Fin 2) = (i 0).val / 5000 := (idx_facts t).2.2.2.1
  have e1 : win0_6.index t (1 : Fin 2) = 0 := (idx_cols t).2.2.2.2.2.2
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; rw [e0]; omega
  | ⟨1, _⟩ => show win0_6.index t (1 : Fin 2) * 32 ≤ (i 1).val ∧ (i 1).val < win0_6.index t (1 : Fin 2) * 32 + 32; rw [e1]; omega

/-- After the region its output array holds the whole layer. -/
theorem final (c : Dev nD) : (dat0 V c).arrAt 6 cfg0.N = G V c :=
  (dat0 V c).arrAt_eq_of_cover 6 (G V c) (fun t _ => flushed_eq V c t) cover

end Cert.KernelIdeal.Blocks0

end
-- ==== Proof.Blocks1.lean ====
/-
  Region 1: what its row blocks write back, and the array they tile.

  The region's grid has ten points; point t works on rows 5000·t … 5000·t + 4999 of the aggregated features, of the
  reciprocal degrees and of the node features, with the two weight matrices and the bias row whole at every point. Its body
  computes one layer on those rows, and a layer's entry (p, q) depends on row p alone, so block t of the result is rows
  5000·t … of the whole layer, and the ten blocks cover every row.
-/
import proofs.«123790_j70909910057300_1_alg».proof.Proof.Gen.KernelIdeal.Frame
import proofs.«123790_j70909910057300_1_alg».proof.Proof.LibSageLayer

set_option maxRecDepth 16384

noncomputable section

open scoped BigOperators

namespace Cert.KernelIdeal.Blocks1

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the layer's entry from row p of the loaded blocks. -/
theorem pay_apply (v0 : Vec Ideal S5000x32 .f32) (v2 : Vec Ideal S5000x1 .f32) (v6 : Vec Ideal S5000x32 .f32)
    (v8 v10 : Vec Ideal S32x128 .f32) (v12 : Vec Ideal S1x128 .f32) (p : Fin 5000) (q : Fin 128) :
    k1_pay1 (F := Ideal) v0 v2 v6 v8 v10 v12 (ix2 p q)
      = sageVal (fun c => v0 (ix2 p c)) (fun c => v6 (ix2 p c)) (v2 (ix2 p (0 : Fin 1)))
          (fun c => v8 (ix2 c q)) (fun c => v10 (ix2 c q)) (v12 (ix2 (0 : Fin 1) q)) := by
  unfold k1_pay1
  refine (blockSage_apply _ _ _ _ _ _ _ _ _ p q).trans ?_
  simp only [shapeCast_self]

/-- The printed index maps over the grid: the three row windows and the output move down one block per point. -/
theorem idx_facts : ∀ t : Fin cfg1.N, win1_0.index t (0 : Fin 2) = t.val ∧ win1_1.index t (0 : Fin 2) = t.val
    ∧ win1_2.index t (0 : Fin 2) = t.val ∧ win1_6.index t (0 : Fin 2) = t.val
    ∧ win1_3.index t (0 : Fin 2) = 0 ∧ win1_4.index t (0 : Fin 2) = 0 ∧ win1_5.index t (0 : Fin 2) = 0 :=
  (by decide +kernel : ∀ t : Fin grid1.N, _)

/-- No window moves along the columns. -/
theorem idx_cols : ∀ t : Fin cfg1.N, win1_0.index t (1 : Fin 2) = 0 ∧ win1_1.index t (1 : Fin 2) = 0
    ∧ win1_2.index t (1 : Fin 2) = 0 ∧ win1_3.index t (1 : Fin 2) = 0 ∧ win1_4.index t (1 : Fin 2) = 0
    ∧ win1_5.index t (1 : Fin 2) = 0 ∧ win1_6.index t (1 : Fin 2) = 0 :=
  (by decide +kernel : ∀ t : Fin grid1.N, _)

/-- Block t of window 0 is rows 5000·t … 5000·t + 4999 of its array. -/
theorem blk0_apply (c : Dev nD) (t : Fin cfg1.N) (x : S5000x32.Idx) (k : S50000x32.Idx)
    (hk0 : (k 0).val = t.val * 5000 + (x 0).val) (hk1 : (k 1).val = (x 1).val) :
    (iblk1 V c 0 t : Vec Ideal S5000x32 .f32) x = (V c main_v34 : S50000x32.Idx → Elt Ideal .f32) k := by
  have e0 : win1_0.index t (0 : Fin 2) = t.val := (idx_facts t).1
  have e1 : win1_0.index t (1 : Fin 2) = 0 := (idx_cols t).1
  unfold iblk1
  rw [View.read_apply]
  show V c main_v34 _ = V c main_v34 _
  congr 1
  funext a; apply Fin.ext
  match a with
  | ⟨0, _⟩ => show win1_0.index t 0 * 5000 + 1 * (x 0).val = (k 0).val; rw [e0, hk0]; omega
  | ⟨1, _⟩ => show win1_0.index t 1 * 32 + 1 * (x 1).val = (k 1).val; rw [e1, hk1]; omega

/-- Block t of window 1 is rows 5000·t … 5000·t + 4999 of its array. -/
theorem blk1_apply (c : Dev nD) (t : Fin cfg1.N) (x : S5000x1.Idx) (k : S50000x1.Idx)
    (hk0 : (k 0).val = t.val * 5000 + (x 0).val) (hk1 : (k 1).val = (x 1).val) :
    (iblk1 V c 1 t : Vec Ideal S5000x1 .f32) x = (V c main_v12 : S50000x1.Idx → Elt Ideal .f32) k := by
  have e0 : win1_1.index t (0 : Fin 2) = t.val := (idx_facts t).2.1
  have e1 : win1_1.index t (1 : Fin 2) = 0 := (idx_cols t).2.1
  unfold iblk1
  rw [View.read_apply]
  show V c main_v12 _ = V c main_v12 _
  congr 1
  funext a; apply Fin.ext
  match a with
  | ⟨0, _⟩ => show win1_1.index t 0 * 5000 + 1 * (x 0).val = (k 0).val; rw [e0, hk0]; omega
  | ⟨1, _⟩ => show win1_1.index t 1 * 1 + 1 * (x 1).val = (k 1).val; rw [e1, hk1]; omega

/-- Block t of window 2 is rows 5000·t … 5000·t + 4999 of its array. -/
theorem blk2_apply (c : Dev nD) (t : Fin cfg1.N) (x : S5000x32.Idx) (k : S50000x32.Idx)
    (hk0 : (k 0).val = t.val * 5000 + (x 0).val) (hk1 : (k 1).val = (x 1).val) :
    (iblk1 V c 2 t : Vec Ideal S5000x32 .f32) x = (V c main_v24 : S50000x32.Idx → Elt Ideal .f32) k := by
  have e0 : win1_2.index t (0 : Fin 2) = t.val := (idx_facts t).2.2.1
  have e1 : win1_2.index t (1 : Fin 2) = 0 := (idx_cols t).2.2.1
  unfold iblk1
  rw [View.read_apply]
  show V c main_v24 _ = V c main_v24 _
  congr 1
  funext a; apply Fin.ext
  match a with
  | ⟨0, _⟩ => show win1_2.index t 0 * 5000 + 1 * (x 0).val = (k 0).val; rw [e0, hk0]; omega
  | ⟨1, _⟩ => show win1_2.index t 1 * 32 + 1 * (x 1).val = (k 1).val; rw [e1, hk1]; omega

/-- Window 3's one block is its whole array, at every point. -/
theorem blk3_apply (c : Dev nD) (t : Fin cfg1.N) (x : S32x128.Idx) :
    (iblk1 V c 3 t : Vec Ideal S32x128 .f32) x = (V c main_arg5 : S32x128.Idx → Elt Ideal .f32) x := by
  have e0 : win1_3.index t (0 : Fin 2) = 0 := (idx_facts t).2.2.2.2.1
  have e1 : win1_3.index t (1 : Fin 2) = 0 := (idx_cols t).2.2.2.1
  unfold iblk1
  rw [View.read_apply]
  show V c main_arg5 _ = V c main_arg5 _
  congr 1
  funext a; apply Fin.ext
  match a with
  | ⟨0, _⟩ => show win1_3.index t 0 * 32 + 1 * (x 0).val = (x 0).val; rw [e0]; omega
  | ⟨1, _⟩ => show win1_3.index t 1 * 128 + 1 * (x 1).val = (x 1).val; rw [e1]; omega

/-- Window 4's one block is its whole array, at every point. -/
theorem blk4_apply (c : Dev nD) (t : Fin cfg1.N) (x : S1x128.Idx) :
    (iblk1 V c 4 t : Vec Ideal S1x128 .f32) x = (V c main_v35 : S1x128.Idx → Elt Ideal .f32) x := by
  have e0 : win1_4.index t (0 : Fin 2) = 0 := (idx_facts t).2.2.2.2.2.1
  have e1 : win1_4.index t (1 : Fin 2) = 0 := (idx_cols t).2.2.2.2.1
  unfold iblk1
  rw [View.read_apply]
  show V c main_v35 _ = V c main_v35 _
  congr 1
  funext a; apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- Window 5's one block is its whole array, at every point. -/
theorem blk5_apply (c : Dev nD) (t : Fin cfg1.N) (x : S32x128.Idx) :
    (iblk1 V c 5 t : Vec Ideal S32x128 .f32) x = (V c main_arg7 : S32x128.Idx → Elt Ideal .f32) x := by
  have e0 : win1_5.index t (0 : Fin 2) = 0 := (idx_facts t).2.2.2.2.2.2
  have e1 : win1_5.index t (1 : Fin 2) = 0 := (idx_cols t).2.2.2.2.2.1
  unfold iblk1
  rw [View.read_apply]
  show V c main_arg7 _ = V c main_arg7 _
  congr 1
  funext a; apply Fin.ext
  match a with
  | ⟨0, _⟩ => show win1_5.index t 0 * 32 + 1 * (x 0).val = (x 0).val; rw [e0]; omega
  | ⟨1, _⟩ => show win1_5.index t 1 * 128 + 1 * (x 1).val = (x 1).val; rw [e1]; omega

/-- The whole layer this region computes, from the arrays as the region finds them. -/
abbrev G (c : Dev nD) : S50000x128.Idx → Elt Ideal .f32 :=
  layerArr (N := 50000) (k := 32) (n := 128) (V c main_v34 : S50000x32.Idx → Elt Ideal .f32)
    (V c main_v12 : S50000x1.Idx → Elt Ideal .f32) (V c main_v24 : S50000x32.Idx → Elt Ideal .f32)
    (V c main_arg5 : S32x128.Idx → Elt Ideal .f32) (V c main_arg7 : S32x128.Idx → Elt Ideal .f32)
    (fun q => (V c main_v35 : S1x128.Idx → Elt Ideal .f32) (ix2 (0 : Fin 1) q))

/-- What point t computes at entry (p, q) of its block is the layer at row 5000·t + p. -/
theorem body_at (c : Dev nD) (t : Fin cfg1.N) (p : Fin 5000) (q : Fin 128) (i : S50000x128.Idx)
    (hi0 : (i 0).val = t.val * 5000 + p.val) (hi1 : (i 1).val = q.val) :
    k1_pay1 (F := Ideal) (iblk1 V c 0 t) (iblk1 V c 1 t) (iblk1 V c 2 t) (iblk1 V c 3 t) (iblk1 V c 5 t) (iblk1 V c 4 t) (ix2 p q)
      = G V c i := by
  refine (pay_apply _ _ _ _ _ _ p q).trans ?_
  have hq : (i 1 : Fin 128) = q := Fin.ext hi1
  show _ = sageVal _ _ _ _ _ _
  congr 1
  · funext c'; exact blk0_apply V c t _ _ hi0 rfl
  · funext c'; exact blk2_apply V c t _ _ hi0 rfl
  · exact blk1_apply V c t _ _ hi0 rfl
  · funext c'; rw [blk3_apply, hq]
  · funext c'; rw [blk5_apply, hq]
  · rw [blk4_apply, hq]

/-- What point t writes back is block t of the layer. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x32) hz, View.ld_unit_zero (S := S5000x1) hz, View.ld_unit_zero (S := S32x128) hz, View.ld_unit_zero (S := S1x128) hz]
  have key : ∀ j : S5000x128.Idx, k1_pay1 (F := Ideal) (iblk1 V c 0 t) (iblk1 V c 1 t) (iblk1 V c 2 t) (iblk1 V c 3 t) (iblk1 V c 5 t) (iblk1 V c 4 t) j
      = G V c (((cfg1.win 6).blk t).view.emb j) := fun j => by
    obtain ⟨p, q, rfl⟩ : ∃ (p : Fin 5000) (q : Fin 128), j = ix2 p q := ⟨j 0, j 1, eq_ix2 j⟩
    have e0 : win1_6.index t (0 : Fin 2) = t.val := (idx_facts t).2.2.2.1
    have e1 : win1_6.index t (1 : Fin 2) = 0 := (idx_cols t).2.2.2.2.2.2
    refine body_at V c t p q _ ?_ ?_
    · show win1_6.index t 0 * 5000 + 1 * p.val = _; rw [e0]; omega
    · show win1_6.index t 1 * 128 + 1 * q.val = _; rw [e1]; omega
  funext j
  exact key j

/-- An index of the array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v36).slice (win1_6.rect t)).set ↔ _
  rw [View.set_slice_whole, Rect.mem_set_unit]
  exact Iff.rfl

/-- Row r of the array lies in the block of point r / 5000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have e0 : win1_6.index t (0 : Fin 2) = (i 0).val / 5000 := (idx_facts t).2.2.2.1
  have e1 : win1_6.index t (1 : Fin 2) = 0 := (idx_cols t).2.2.2.2.2.2
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; rw [e0]; omega
  | ⟨1, _⟩ => show win1_6.index t (1 : Fin 2) * 128 ≤ (i 1).val ∧ (i 1).val < win1_6.index t (1 : Fin 2) * 128 + 128; rw [e1]; omega

/-- After the region its output array holds the whole layer. -/
theorem final (c : Dev nD) : (dat1 V c).arrAt 6 cfg1.N = G V c :=
  (dat1 V c).arrAt_eq_of_cover 6 (G V c) (fun t _ => flushed_eq V c t) cover

end Cert.KernelIdeal.Blocks1

end
-- ==== Proof.Blocks2.lean ====
/-
  Region 2: what its row blocks write back, and the array they tile.

  The region's grid has ten points; point t works on rows 5000·t … 5000·t + 4999 of the aggregated features, of the
  reciprocal degrees and of the node features, with the two weight matrices and the bias row whole at every point. Its body
  computes one layer on those rows, and a layer's entry (p, q) depends on row p alone, so block t of the result is rows
  5000·t … of the whole layer, and the ten blocks cover every row.
-/
import proofs.«123790_j70909910057300_1_alg».proof.Proof.Gen.KernelIdeal.Frame
import proofs.«123790_j70909910057300_1_alg».proof.Proof.LibSageLayer

set_option maxRecDepth 16384

noncomputable section

open scoped BigOperators

namespace Cert.KernelIdeal.Blocks2

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the layer's entry from row p of the loaded blocks. -/
theorem pay_apply (v0 : Vec Ideal S5000x128 .f32) (v2 : Vec Ideal S5000x1 .f32) (v6 : Vec Ideal S5000x128 .f32)
    (v8 v10 : Vec Ideal S128x128 .f32) (v12 : Vec Ideal S1x128 .f32) (p : Fin 5000) (q : Fin 128) :
    k2_pay1 (F := Ideal) v0 v2 v6 v8 v10 v12 (ix2 p q)
      = sageVal (fun c => v0 (ix2 p c)) (fun c => v6 (ix2 p c)) (v2 (ix2 p (0 : Fin 1)))
          (fun c => v8 (ix2 c q)) (fun c => v10 (ix2 c q)) (v12 (ix2 (0 : Fin 1) q)) := by
  unfold k2_pay1
  refine (blockSage_apply _ _ _ _ _ _ _ _ _ p q).trans ?_
  simp only [shapeCast_self]

/-- The printed index maps over the grid: the three row windows and the output move down one block per point. -/
theorem idx_facts : ∀ t : Fin cfg2.N, win2_0.index t (0 : Fin 2) = t.val ∧ win2_1.index t (0 : Fin 2) = t.val
    ∧ win2_2.index t (0 : Fin 2) = t.val ∧ win2_6.index t (0 : Fin 2) = t.val
    ∧ win2_3.index t (0 : Fin 2) = 0 ∧ win2_4.index t (0 : Fin 2) = 0 ∧ win2_5.index t (0 : Fin 2) = 0 :=
  (by decide +kernel : ∀ t : Fin grid2.N, _)

/-- No window moves along the columns. -/
theorem idx_cols : ∀ t : Fin cfg2.N, win2_0.index t (1 : Fin 2) = 0 ∧ win2_1.index t (1 : Fin 2) = 0
    ∧ win2_2.index t (1 : Fin 2) = 0 ∧ win2_3.index t (1 : Fin 2) = 0 ∧ win2_4.index t (1 : Fin 2) = 0
    ∧ win2_5.index t (1 : Fin 2) = 0 ∧ win2_6.index t (1 : Fin 2) = 0 :=
  (by decide +kernel : ∀ t : Fin grid2.N, _)

/-- Block t of window 0 is rows 5000·t … 5000·t + 4999 of its array. -/
theorem blk0_apply (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v46 : S50000x128.Idx → Elt Ideal .f32) k := by
  have e0 : win2_0.index t (0 : Fin 2) = t.val := (idx_facts t).1
  have e1 : win2_0.index t (1 : Fin 2) = 0 := (idx_cols t).1
  unfold iblk2
  rw [View.read_apply]
  show V c main_v46 _ = V c main_v46 _
  congr 1
  funext a; apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- Block t of window 1 is rows 5000·t … 5000·t + 4999 of its array. -/
theorem blk1_apply (c : Dev nD) (t : Fin cfg2.N) (x : S5000x1.Idx) (k : S50000x1.Idx)
    (hk0 : (k 0).val = t.val * 5000 + (x 0).val) (hk1 : (k 1).val = (x 1).val) :
    (iblk2 V c 1 t : Vec Ideal S5000x1 .f32) x = (V c main_v12 : S50000x1.Idx → Elt Ideal .f32) k := by
  have e0 : win2_1.index t (0 : Fin 2) = t.val := (idx_facts t).2.1
  have e1 : win2_1.index t (1 : Fin 2) = 0 := (idx_cols t).2.1
  unfold iblk2
  rw [View.read_apply]
  show V c main_v12 _ = V c main_v12 _
  congr 1
  funext a; apply Fin.ext
  match a with
  | ⟨0, _⟩ => show win2_1.index t 0 * 5000 + 1 * (x 0).val = (k 0).val; rw [e0, hk0]; omega
  | ⟨1, _⟩ => show win2_1.index t 1 * 1 + 1 * (x 1).val = (k 1).val; rw [e1, hk1]; omega

/-- Block t of window 2 is rows 5000·t … 5000·t + 4999 of its array. -/
theorem blk2_apply (c : Dev nD) (t : Fin cfg2.N) (x : S5000x128.Idx) (k : S50000x128.Idx)
    (hk0 : (k 0).val = t.val * 5000 + (x 0).val) (hk1 : (k 1).val = (x 1).val) :
    (iblk2 V c 2 t : Vec Ideal S5000x128 .f32) x = (V c main_v36 : S50000x128.Idx → Elt Ideal .f32) k := by
  have e0 : win2_2.index t (0 : Fin 2) = t.val := (idx_facts t).2.2.1
  have e1 : win2_2.index t (1 : Fin 2) = 0 := (idx_cols t).2.2.1
  unfold iblk2
  rw [View.read_apply]
  show V c main_v36 _ = V c main_v36 _
  congr 1
  funext a; apply Fin.ext
  match a with
  | ⟨0, _⟩ => show win2_2.index t 0 * 5000 + 1 * (x 0).val = (k 0).val; rw [e0, hk0]; omega
  | ⟨1, _⟩ => show win2_2.index t 1 * 128 + 1 * (x 1).val = (k 1).val; rw [e1, hk1]; omega

/-- Window 3's one block is its whole array, at every point. -/
theorem blk3_apply (c : Dev nD) (t : Fin cfg2.N) (x : S128x128.Idx) :
    (iblk2 V c 3 t : Vec Ideal S128x128 .f32) x = (V c main_arg8 : S128x128.Idx → Elt Ideal .f32) x := by
  have e0 : win2_3.index t (0 : Fin 2) = 0 := (idx_facts t).2.2.2.2.1
  have e1 : win2_3.index t (1 : Fin 2) = 0 := (idx_cols t).2.2.2.1
  unfold iblk2
  rw [View.read_apply]
  show V c main_arg8 _ = V c main_arg8 _
  congr 1
  funext a; apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega

/-- Window 4's one block is its whole array, at every point. -/
theorem blk4_apply (c : Dev nD) (t : Fin cfg2.N) (x : S1x128.Idx) :
    (iblk2 V c 4 t : Vec Ideal S1x128 .f32) x = (V c main_v47 : S1x128.Idx → Elt Ideal .f32) x := by
  have e0 : win2_4.index t (0 : Fin 2) = 0 := (idx_facts t).2.2.2.2.2.1
  have e1 : win2_4.index t (1 : Fin 2) = 0 := (idx_cols t).2.2.2.2.1
  unfold iblk2
  rw [View.read_apply]
  show V c main_v47 _ = V c main_v47 _
  congr 1
  funext a; apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- Window 5's one block is its whole array, at every point. -/
theorem blk5_apply (c : Dev nD) (t : Fin cfg2.N) (x : S128x128.Idx) :
    (iblk2 V c 5 t : Vec Ideal S128x128 .f32) x = (V c main_arg10 : S128x128.Idx → Elt Ideal .f32) x := by
  have e0 : win2_5.index t (0 : Fin 2) = 0 := (idx_facts t).2.2.2.2.2.2
  have e1 : win2_5.index t (1 : Fin 2) = 0 := (idx_cols t).2.2.2.2.2.1
  unfold iblk2
  rw [View.read_apply]
  show V c main_arg10 _ = V c main_arg10 _
  congr 1
  funext a; apply Fin.ext
  match a with
  | ⟨0, _⟩ => show win2_5.index t 0 * 128 + 1 * (x 0).val = (x 0).val; rw [e0]; omega
  | ⟨1, _⟩ => show win2_5.index t 1 * 128 + 1 * (x 1).val = (x 1).val; rw [e1]; omega

/-- The whole layer this region computes, from the arrays as the region finds them. -/
abbrev G (c : Dev nD) : S50000x128.Idx → Elt Ideal .f32 :=
  layerArr (N := 50000) (k := 128) (n := 128) (V c main_v46 : S50000x128.Idx → Elt Ideal .f32)
    (V c main_v12 : S50000x1.Idx → Elt Ideal .f32) (V c main_v36 : S50000x128.Idx → Elt Ideal .f32)
    (V c main_arg8 : S128x128.Idx → Elt Ideal .f32) (V c main_arg10 : S128x128.Idx → Elt Ideal .f32)
    (fun q => (V c main_v47 : S1x128.Idx → Elt Ideal .f32) (ix2 (0 : Fin 1) q))

/-- What point t computes at entry (p, q) of its block is the layer at row 5000·t + p. -/
theorem body_at (c : Dev nD) (t : Fin cfg2.N) (p : Fin 5000) (q : Fin 128) (i : S50000x128.Idx)
    (hi0 : (i 0).val = t.val * 5000 + p.val) (hi1 : (i 1).val = q.val) :
    k2_pay1 (F := Ideal) (iblk2 V c 0 t) (iblk2 V c 1 t) (iblk2 V c 2 t) (iblk2 V c 3 t) (iblk2 V c 5 t) (iblk2 V c 4 t) (ix2 p q)
      = G V c i := by
  refine (pay_apply _ _ _ _ _ _ p q).trans ?_
  have hq : (i 1 : Fin 128) = q := Fin.ext hi1
  show _ = sageVal _ _ _ _ _ _
  congr 1
  · funext c'; exact blk0_apply V c t _ _ hi0 rfl
  · funext c'; exact blk2_apply V c t _ _ hi0 rfl
  · exact blk1_apply V c t _ _ hi0 rfl
  · funext c'; rw [blk3_apply, hq]
  · funext c'; rw [blk5_apply, hq]
  · rw [blk4_apply, hq]

/-- What point t writes back is block t of the layer. -/
theorem flushed_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz, View.ld_unit_zero (S := S128x128) hz, View.ld_unit_zero (S := S1x128) hz]
  have key : ∀ j : S5000x128.Idx, k2_pay1 (F := Ideal) (iblk2 V c 0 t) (iblk2 V c 1 t) (iblk2 V c 2 t) (iblk2 V c 3 t) (iblk2 V c 5 t) (iblk2 V c 4 t) j
      = G V c (((cfg2.win 6).blk t).view.emb j) := fun j => by
    obtain ⟨p, q, rfl⟩ : ∃ (p : Fin 5000) (q : Fin 128), j = ix2 p q := ⟨j 0, j 1, eq_ix2 j⟩
    have e0 : win2_6.index t (0 : Fin 2) = t.val := (idx_facts t).2.2.2.1
    have e1 : win2_6.index t (1 : Fin 2) = 0 := (idx_cols t).2.2.2.2.2.2
    refine body_at V c t p q _ ?_ ?_
    · show win2_6.index t 0 * 5000 + 1 * p.val = _; rw [e0]; omega
    · show win2_6.index t 1 * 128 + 1 * q.val = _; rw [e1]; omega
  funext j
  exact key j

/-- An index of the array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v48).slice (win2_6.rect t)).set ↔ _
  rw [View.set_slice_whole, Rect.mem_set_unit]
  exact Iff.rfl

/-- Row r of the array lies in the block of point r / 5000. -/
theorem cover (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have e0 : win2_6.index t (0 : Fin 2) = (i 0).val / 5000 := (idx_facts t).2.2.2.1
  have e1 : win2_6.index t (1 : Fin 2) = 0 := (idx_cols t).2.2.2.2.2.2
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; rw [e0]; omega
  | ⟨1, _⟩ => show win2_6.index t (1 : Fin 2) * 128 ≤ (i 1).val ∧ (i 1).val < win2_6.index t (1 : Fin 2) * 128 + 128; rw [e1]; omega

/-- After the region its output array holds the whole layer. -/
theorem final (c : Dev nD) : (dat2 V c).arrAt 6 cfg2.N = G V c :=
  (dat2 V c).arrAt_eq_of_cover 6 (G V c) (fun t _ => flushed_eq V c t) cover

end Cert.KernelIdeal.Blocks2

end
-- ==== Proof.Blocks3.lean ====
/-
  Region 3: what its row blocks write back, and the array they tile.

  The region's grid has ten points; point t works on rows 5000·t … 5000·t + 4999 of the aggregated features, of the
  reciprocal degrees and of the node features, with the two weight matrices and the bias row whole at every point. Its body
  computes one layer on those rows, and a layer's entry (p, q) depends on row p alone, so block t of the result is rows
  5000·t … of the whole layer, and the ten blocks cover every row.
-/
import proofs.«123790_j70909910057300_1_alg».proof.Proof.Gen.KernelIdeal.Frame
import proofs.«123790_j70909910057300_1_alg».proof.Proof.LibSageLayer

set_option maxRecDepth 16384

noncomputable section

open scoped BigOperators

namespace Cert.KernelIdeal.Blocks3

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the layer's entry from row p of the loaded blocks. -/
theorem pay_apply (v0 : Vec Ideal S5000x128 .f32) (v2 : Vec Ideal S5000x1 .f32) (v6 : Vec Ideal S5000x128 .f32)
    (v8 v10 : Vec Ideal S128x128 .f32) (v12 : Vec Ideal S1x128 .f32) (p : Fin 5000) (q : Fin 128) :
    k3_pay1 (F := Ideal) v0 v2 v6 v8 v10 v12 (ix2 p q)
      = sageVal (fun c => v0 (ix2 p c)) (fun c => v6 (ix2 p c)) (v2 (ix2 p (0 : Fin 1)))
          (fun c => v8 (ix2 c q)) (fun c => v10 (ix2 c q)) (v12 (ix2 (0 : Fin 1) q)) := by
  unfold k3_pay1
  refine (blockSage_apply _ _ _ _ _ _ _ _ _ p q).trans ?_
  simp only [shapeCast_self]

/-- The printed index maps over the grid: the three row windows and the output move down one block per point. -/
theorem idx_facts : ∀ t : Fin cfg3.N, win3_0.index t (0 : Fin 2) = t.val ∧ win3_1.index t (0 : Fin 2) = t.val
    ∧ win3_2.index t (0 : Fin 2) = t.val ∧ win3_6.index t (0 : Fin 2) = t.val
    ∧ win3_3.index t (0 : Fin 2) = 0 ∧ win3_4.index t (0 : Fin 2) = 0 ∧ win3_5.index t (0 : Fin 2) = 0 :=
  (by decide +kernel : ∀ t : Fin grid3.N, _)

/-- No window moves along the columns. -/
theorem idx_cols : ∀ t : Fin cfg3.N, win3_0.index t (1 : Fin 2) = 0 ∧ win3_1.index t (1 : Fin 2) = 0
    ∧ win3_2.index t (1 : Fin 2) = 0 ∧ win3_3.index t (1 : Fin 2) = 0 ∧ win3_4.index t (1 : Fin 2) = 0
    ∧ win3_5.index t (1 : Fin 2) = 0 ∧ win3_6.index t (1 : Fin 2) = 0 :=
  (by decide +kernel : ∀ t : Fin grid3.N, _)

/-- Block t of window 0 is rows 5000·t … 5000·t + 4999 of its array. -/
theorem blk0_apply (c : Dev nD) (t : Fin cfg3.N) (x : S5000x128.Idx) (k : S50000x128.Idx)
    (hk0 : (k 0).val = t.val * 5000 + (x 0).val) (hk1 : (k 1).val = (x 1).val) :
    (iblk3 V c 0 t : Vec Ideal S5000x128 .f32) x = (V c main_v58 : S50000x128.Idx → Elt Ideal .f32) k := by
  have e0 : win3_0.index t (0 : Fin 2) = t.val := (idx_facts t).1
  have e1 : win3_0.index t (1 : Fin 2) = 0 := (idx_cols t).1
  unfold iblk3
  rw [View.read_apply]
  show V c main_v58 _ = V c main_v58 _
  congr 1
  funext a; apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- Block t of window 1 is rows 5000·t … 5000·t + 4999 of its array. -/
theorem blk1_apply (c : Dev nD) (t : Fin cfg3.N) (x : S5000x1.Idx) (k : S50000x1.Idx)
    (hk0 : (k 0).val = t.val * 5000 + (x 0).val) (hk1 : (k 1).val = (x 1).val) :
    (iblk3 V c 1 t : Vec Ideal S5000x1 .f32) x = (V c main_v12 : S50000x1.Idx → Elt Ideal .f32) k := by
  have e0 : win3_1.index t (0 : Fin 2) = t.val := (idx_facts t).2.1
  have e1 : win3_1.index t (1 : Fin 2) = 0 := (idx_cols t).2.1
  unfold iblk3
  rw [View.read_apply]
  show V c main_v12 _ = V c main_v12 _
  congr 1
  funext a; apply Fin.ext
  match a with
  | ⟨0, _⟩ => show win3_1.index t 0 * 5000 + 1 * (x 0).val = (k 0).val; rw [e0, hk0]; omega
  | ⟨1, _⟩ => show win3_1.index t 1 * 1 + 1 * (x 1).val = (k 1).val; rw [e1, hk1]; omega

/-- Block t of window 2 is rows 5000·t … 5000·t + 4999 of its array. -/
theorem blk2_apply (c : Dev nD) (t : Fin cfg3.N) (x : S5000x128.Idx) (k : S50000x128.Idx)
    (hk0 : (k 0).val = t.val * 5000 + (x 0).val) (hk1 : (k 1).val = (x 1).val) :
    (iblk3 V c 2 t : Vec Ideal S5000x128 .f32) x = (V c main_v48 : S50000x128.Idx → Elt Ideal .f32) k := by
  have e0 : win3_2.index t (0 : Fin 2) = t.val := (idx_facts t).2.2.1
  have e1 : win3_2.index t (1 : Fin 2) = 0 := (idx_cols t).2.2.1
  unfold iblk3
  rw [View.read_apply]
  show V c main_v48 _ = V c main_v48 _
  congr 1
  funext a; apply Fin.ext
  match a with
  | ⟨0, _⟩ => show win3_2.index t 0 * 5000 + 1 * (x 0).val = (k 0).val; rw [e0, hk0]; omega
  | ⟨1, _⟩ => show win3_2.index t 1 * 128 + 1 * (x 1).val = (k 1).val; rw [e1, hk1]; omega

/-- Window 3's one block is its whole array, at every point. -/
theorem blk3_apply (c : Dev nD) (t : Fin cfg3.N) (x : S128x128.Idx) :
    (iblk3 V c 3 t : Vec Ideal S128x128 .f32) x = (V c main_arg11 : S128x128.Idx → Elt Ideal .f32) x := by
  have e0 : win3_3.index t (0 : Fin 2) = 0 := (idx_facts t).2.2.2.2.1
  have e1 : win3_3.index t (1 : Fin 2) = 0 := (idx_cols t).2.2.2.1
  unfold iblk3
  rw [View.read_apply]
  show V c main_arg11 _ = V c main_arg11 _
  congr 1
  funext a; apply Fin.ext
  match a with
  | ⟨0, _⟩ => show win3_3.index t 0 * 128 + 1 * (x 0).val = (x 0).val; rw [e0]; omega
  | ⟨1, _⟩ => show win3_3.index t 1 * 128 + 1 * (x 1).val = (x 1).val; rw [e1]; omega

/-- Window 4's one block is its whole array, at every point. -/
theorem blk4_apply (c : Dev nD) (t : Fin cfg3.N) (x : S1x128.Idx) :
    (iblk3 V c 4 t : Vec Ideal S1x128 .f32) x = (V c main_v59 : S1x128.Idx → Elt Ideal .f32) x := by
  have e0 : win3_4.index t (0 : Fin 2) = 0 := (idx_facts t).2.2.2.2.2.1
  have e1 : win3_4.index t (1 : Fin 2) = 0 := (idx_cols t).2.2.2.2.1
  unfold iblk3
  rw [View.read_apply]
  show V c main_v59 _ = V c main_v59 _
  congr 1
  funext a; apply Fin.ext
  match a with
  | ⟨0, _⟩ => show win3_4.index t 0 * 1 + 1 * (x 0).val = (x 0).val; rw [e0]; omega
  | ⟨1, _⟩ => show win3_4.index t 1 * 128 + 1 * (x 1).val = (x 1).val; rw [e1]; omega

/-- Window 5's one block is its whole array, at every point. -/
theorem blk5_apply (c : Dev nD) (t : Fin cfg3.N) (x : S128x128.Idx) :
    (iblk3 V c 5 t : Vec Ideal S128x128 .f32) x = (V c main_arg13 : S128x128.Idx → Elt Ideal .f32) x := by
  have e0 : win3_5.index t (0 : Fin 2) = 0 := (idx_facts t).2.2.2.2.2.2
  have e1 : win3_5.index t (1 : Fin 2) = 0 := (idx_cols t).2.2.2.2.2.1
  unfold iblk3
  rw [View.read_apply]
  show V c main_arg13 _ = V c main_arg13 _
  congr 1
  funext a; apply Fin.ext
  match a with
  | ⟨0, _⟩ => show win3_5.index t 0 * 128 + 1 * (x 0).val = (x 0).val; rw [e0]; omega
  | ⟨1, _⟩ => show win3_5.index t 1 * 128 + 1 * (x 1).val = (x 1).val; rw [e1]; omega

/-- The whole layer this region computes, from the arrays as the region finds them. -/
abbrev G (c : Dev nD) : S50000x128.Idx → Elt Ideal .f32 :=
  layerArr (N := 50000) (k := 128) (n := 128) (V c main_v58 : S50000x128.Idx → Elt Ideal .f32)
    (V c main_v12 : S50000x1.Idx → Elt Ideal .f32) (V c main_v48 : S50000x128.Idx → Elt Ideal .f32)
    (V c main_arg11 : S128x128.Idx → Elt Ideal .f32) (V c main_arg13 : S128x128.Idx → Elt Ideal .f32)
    (fun q => (V c main_v59 : S1x128.Idx → Elt Ideal .f32) (ix2 (0 : Fin 1) q))

/-- What point t computes at entry (p, q) of its block is the layer at row 5000·t + p. -/
theorem body_at (c : Dev nD) (t : Fin cfg3.N) (p : Fin 5000) (q : Fin 128) (i : S50000x128.Idx)
    (hi0 : (i 0).val = t.val * 5000 + p.val) (hi1 : (i 1).val = q.val) :
    k3_pay1 (F := Ideal) (iblk3 V c 0 t) (iblk3 V c 1 t) (iblk3 V c 2 t) (iblk3 V c 3 t) (iblk3 V c 5 t) (iblk3 V c 4 t) (ix2 p q)
      = G V c i := by
  refine (pay_apply _ _ _ _ _ _ p q).trans ?_
  have hq : (i 1 : Fin 128) = q := Fin.ext hi1
  show _ = sageVal _ _ _ _ _ _
  congr 1
  · funext c'; exact blk0_apply V c t _ _ hi0 rfl
  · funext c'; exact blk2_apply V c t _ _ hi0 rfl
  · exact blk1_apply V c t _ _ hi0 rfl
  · funext c'; rw [blk3_apply, hq]
  · funext c'; rw [blk5_apply, hq]
  · rw [blk4_apply, hq]

/-- What point t writes back is block t of the layer. -/
theorem flushed_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x128) hz, View.ld_unit_zero (S := S5000x1) hz, View.ld_unit_zero (S := S128x128) hz, View.ld_unit_zero (S := S1x128) hz]
  have key : ∀ j : S5000x128.Idx, k3_pay1 (F := Ideal) (iblk3 V c 0 t) (iblk3 V c 1 t) (iblk3 V c 2 t) (iblk3 V c 3 t) (iblk3 V c 5 t) (iblk3 V c 4 t) j
      = G V c (((cfg3.win 6).blk t).view.emb j) := fun j => by
    obtain ⟨p, q, rfl⟩ : ∃ (p : Fin 5000) (q : Fin 128), j = ix2 p q := ⟨j 0, j 1, eq_ix2 j⟩
    have e0 : win3_6.index t (0 : Fin 2) = t.val := (idx_facts t).2.2.2.1
    have e1 : win3_6.index t (1 : Fin 2) = 0 := (idx_cols t).2.2.2.2.2.2
    refine body_at V c t p q _ ?_ ?_
    · show win3_6.index t 0 * 5000 + 1 * p.val = _; rw [e0]; omega
    · show win3_6.index t 1 * 128 + 1 * q.val = _; rw [e1]; omega
  funext j
  exact key j

/-- An index of the array is in point t's block iff each coordinate is in the block's range on its axis. -/
theorem mem_blk (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v60).slice (win3_6.rect t)).set ↔ _
  rw [View.set_slice_whole, Rect.mem_set_unit]
  exact Iff.rfl

/-- Row r of the array lies in the block of point r / 5000. -/
theorem cover (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have e0 : win3_6.index t (0 : Fin 2) = (i 0).val / 5000 := (idx_facts t).2.2.2.1
  have e1 : win3_6.index t (1 : Fin 2) = 0 := (idx_cols t).2.2.2.2.2.2
  refine ⟨t, flush3_6 t, ?_⟩
  rw [mem_blk]
  intro a
  match a with
  | ⟨0, _⟩ => show win3_6.index t (0 : Fin 2) * 5000 ≤ (i 0).val ∧ (i 0).val < win3_6.index t (0 : Fin 2) * 5000 + 5000; rw [e0]; omega
  | ⟨1, _⟩ => show win3_6.index t (1 : Fin 2) * 128 ≤ (i 1).val ∧ (i 1).val < win3_6.index t (1 : Fin 2) * 128 + 128; rw [e1]; omega

/-- After the region its output array holds the whole layer. -/
theorem final (c : Dev nD) : (dat3 V c).arrAt 6 cfg3.N = G V c :=
  (dat3 V c).arrAt_eq_of_cover 6 (G V c) (fun t _ => flushed_eq V c t) cover

end Cert.KernelIdeal.Blocks3

end
-- ==== Proof.Blocks4.lean ====
/-
  Region 4: the last layer and the head, by row blocks.

  Point t works on rows 5000·t … 5000·t + 4999: it computes the last layer on those rows, contracts each row with the
  head's weight row and adds the head's scalar, and writes a [5000, 1] column block. Entry p of the head depends on row p
  alone, so block t of the result is rows 5000·t … of the whole head, and the ten blocks cover every row.
-/
import proofs.«123790_j70909910057300_1_alg».proof.Proof.Gen.KernelIdeal.Frame
import proofs.«123790_j70909910057300_1_alg».proof.Proof.LibSageLayer

set_option maxRecDepth 16384

noncomputable section

open scoped BigOperators

namespace Cert.KernelIdeal.Blocks4

open Idealize.ShloMosaic Idealize.ShloMosaic.TcCoe Idealize.ShloMosaic.ValueIdx Idealize.SL.Sem
open Cert.KernelIdeal Cert.KernelIdeal.Gen Cert.Sage
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's value at an entry of the block: the head of row p of the last layer of the loaded blocks. -/
theorem pay_apply (v0 : Vec Ideal S5000x128 .f32) (v2 : Vec Ideal S5000x1 .f32) (v6 : Vec Ideal S5000x128 .f32)
    (v8 v10 : Vec Ideal S128x128 .f32) (v12 : Vec Ideal S1x128 .f32) (v23 : Vec Ideal S1x128 .f32) (v25 : Vec Ideal S1x1 .f32)
    (p : Fin 5000) (u : Fin 1) :
    k4_pay1 (F := Ideal) v0 v2 v6 v8 v10 v12 v23 v25 (ix2 p u)
      = (∑ j : Fin 128, sageVal (fun c => v0 (ix2 p c)) (fun c => v6 (ix2 p c)) (v2 (ix2 p (0 : Fin 1)))
            (fun c => v8 (ix2 c j)) (fun c => v10 (ix2 c j)) (v12 (ix2 (0 : Fin 1) j)) * v23 (ix2 (0 : Fin 1) j))
          + v25 (ix2 (0 : Fin 1) (0 : Fin 1)) := by
  unfold k4_pay1
  refine (blockHead_apply _ _ _ _ _ _ _ _ _ p u).trans ?_
  refine congrArg₂ (· + ·) (Finset.sum_congr rfl fun j _ => congrArg₂ (· * ·) ?_ ?_) ?_
  · refine (blockSage_apply _ _ _ _ _ _ _ _ _ p j).trans ?_
    simp only [shapeCast_self]
  · rw [shapeCast_self]
  · rw [shapeCast_self]

/-- The printed index maps over the grid: the three row windows and the output move down one block per point. -/
theorem idx_facts : ∀ t : Fin cfg4.N, win4_0.index t (0 : Fin 2) = t.val
    ∧ win4_1.index t (0 : Fin 2) = t.val
    ∧ win4_2.index t (0 : Fin 2) = t.val
    ∧ win4_8.index t (0 : Fin 2) = t.val
    ∧ win4_3.index t (0 : Fin 2) = 0
    ∧ win4_4.index t (0 : Fin 2) = 0
    ∧ win4_5.index t (0 : Fin 2) = 0
    ∧ win4_6.index t (0 : Fin 2) = 0
    ∧ win4_7.index t (0 : Fin 2) = 0 :=
  (by decide +kernel : ∀ t : Fin grid4.N, _)

/-- No window moves along the columns. -/
theorem idx_cols : ∀ t : Fin cfg4.N, win4_0.index t (1 : Fin 2) = 0
    ∧ win4_1.index t (1 : Fin 2) = 0
    ∧ win4_2.index t (1 : Fin 2) = 0
    ∧ win4_3.index t (1 : Fin 2) = 0
    ∧ win4_4.index t (1 : Fin 2) = 0
    ∧ win4_5.index t (1 : Fin 2) = 0
    ∧ win4_6.index t (1 : Fin 2) = 0
    ∧ win4_7.index t (1 : Fin 2) = 0
    ∧ win4_8.index t (1 : Fin 2) = 0 :=
  (by decide +kernel : ∀ t : Fin grid4.N, _)

/-- Block t of window 0 is rows 5000·t … 5000·t + 4999 of its array. -/
theorem blk0_apply (c : Dev nD) (t : Fin cfg4.N) (x : S5000x128.Idx) (k : S50000x128.Idx)
    (hk0 : (k 0).val = t.val * 5000 + (x 0).val) (hk1 : (k 1).val = (x 1).val) :
    (iblk4 V c 0 t : Vec Ideal S5000x128 .f32) x = (V c main_v70 : S50000x128.Idx → Elt Ideal .f32) k := by
  have e0 : win4_0.index t (0 : Fin 2) = t.val := (idx_facts t).1
  have e1 : win4_0.index t (1 : Fin 2) = 0 := (idx_cols t).1
  unfold iblk4
  rw [View.read_apply]
  show V c main_v70 _ = V c main_v70 _
  congr 1
  funext a; apply Fin.ext
  match a with
  | ⟨0, _⟩ => show win4_0.index t 0 * 5000 + 1 * (x 0).val = (k 0).val; rw [e0, hk0]; omega
  | ⟨1, _⟩ => show win4_0.index t 1 * 128 + 1 * (x 1).val = (k 1).val; rw [e1, hk1]; omega

/-- Block t of window 1 is rows 5000·t … 5000·t + 4999 of its array. -/
theorem blk1_apply (c : Dev nD) (t : Fin cfg4.N) (x : S5000x1.Idx) (k : S50000x1.Idx)
    (hk0 : (k 0).val = t.val * 5000 + (x 0).val) (hk1 : (k 1).val = (x 1).val) :
    (iblk4 V c 1 t : Vec Ideal S5000x1 .f32) x = (V c main_v12 : S50000x1.Idx → Elt Ideal .f32) k := by
  have e0 : win4_1.index t (0 : Fin 2) = t.val := (idx_facts t).2.1
  have e1 : win4_1.index t (1 : Fin 2) = 0 := (idx_cols t).2.1
  unfold iblk4
  rw [View.read_apply]
  show V c main_v12 _ = V c main_v12 _
  congr 1
  funext a; apply Fin.ext
  match a with
  | ⟨0, _⟩ => show win4_1.index t 0 * 5000 + 1 * (x 0).val = (k 0).val; rw [e0, hk0]; omega
  | ⟨1, _⟩ => show win4_1.index t 1 * 1 + 1 * (x 1).val = (k 1).val; rw [e1, hk1]; omega

/-- Block t of window 2 is rows 5000·t … 5000·t + 4999 of its array. -/
theorem blk2_apply (c : Dev nD) (t : Fin cfg4.N) (x : S5000x128.Idx) (k : S50000x128.Idx)
    (hk0 : (k 0).val = t.val * 5000 + (x 0).val) (hk1 : (k 1).val = (x 1).val) :
    (iblk4 V c 2 t : Vec Ideal S5000x128 .f32) x = (V c main_v60 : S50000x128.Idx → Elt Ideal .f32) k := by
  have e0 : win4_2.index t (0 : Fin 2) = t.val := (idx_facts t).2.2.1
  have e1 : win4_2.index t (1 : Fin 2) = 0 := (idx_cols t).2.2.1
  unfold iblk4
  rw [View.read_apply]
  show V c main_v60 _ = V c main_v60 _
  congr 1
  funext a; apply Fin.ext
  match a with
  | ⟨0, _⟩ => show win4_2.index t 0 * 5000 + 1 * (x 0).val = (k 0).val; rw [e0, hk0]; omega
  | ⟨1, _⟩ => show win4_2.index t 1 * 128 + 1 * (x 1).val = (k 1).val; rw [e1, hk1]; omega

/-- Window 3's one block is its whole array, at every point. -/
theorem blk3_apply (c : Dev nD) (t : Fin cfg4.N) (x : S128x128.Idx) :
    (iblk4 V c 3 t : Vec Ideal S128x128 .f32) x = (V c main_arg14 : S128x128.Idx → Elt Ideal .f32) x := by
  have e0 : win4_3.index t (0 : Fin 2) = 0 := (idx_facts t).2.2.2.2.1
  have e1 : win4_3.index t (1 : Fin 2) = 0 := (idx_cols t).2.2.2.1
  unfold iblk4
  rw [View.read_apply]
  show V c main_arg14 _ = V c main_arg14 _
  congr 1
  funext a; apply Fin.ext
  match a with
  | ⟨0, _⟩ => show win4_3.index t 0 * 128 + 1 * (x 0).val = (x 0).val; rw [e0]; omega
  | ⟨1, _⟩ => show win4_3.index t 1 * 128 + 1 * (x 1).val = (x 1).val; rw [e1]; omega

/-- Window 4's one block is its whole array, at every point. -/
theorem blk4_apply (c : Dev nD) (t : Fin cfg4.N) (x : S1x128.Idx) :
    (iblk4 V c 4 t : Vec Ideal S1x128 .f32) x = (V c main_v71 : S1x128.Idx → Elt Ideal .f32) x := by
  have e0 : win4_4.index t (0 : Fin 2) = 0 := (idx_facts t).2.2.2.2.2.1
  have e1 : win4_4.index t (1 : Fin 2) = 0 := (idx_cols t).2.2.2.2.1
  unfold iblk4
  rw [View.read_apply]
  show V c main_v71 _ = V c main_v71 _
  congr 1
  funext a; apply Fin.ext
  match a with
  | ⟨0, _⟩ => show win4_4.index t 0 * 1 + 1 * (x 0).val = (x 0).val; rw [e0]; omega
  | ⟨1, _⟩ => show win4_4.index t 1 * 128 + 1 * (x 1).val = (x 1).val; rw [e1]; omega

/-- Window 5's one block is its whole array, at every point. -/
theorem blk5_apply (c : Dev nD) (t : Fin cfg4.N) (x : S128x128.Idx) :
    (iblk4 V c 5 t : Vec Ideal S128x128 .f32) x = (V c main_arg16 : S128x128.Idx → Elt Ideal .f32) x := by
  have e0 : win4_5.index t (0 : Fin 2) = 0 := (idx_facts t).2.2.2.2.2.2.1
  have e1 : win4_5.index t (1 : Fin 2) = 0 := (idx_cols t).2.2.2.2.2.1
  unfold iblk4
  rw [View.read_apply]
  show V c main_arg16 _ = V c main_arg16 _
  congr 1
  funext a; apply Fin.ext
  match a with
  | ⟨0, _⟩ => show win4_5.index t 0 * 128 + 1 * (x 0).val = (x 0).val; rw [e0]; omega
  | ⟨1, _⟩ => show win4_5.index t 1 * 128 + 1 * (x 1).val = (x 1).val; rw [e1]; omega

/-- Window 6's one block is its whole array, at every point. -/
theorem blk6_apply (c : Dev nD) (t : Fin cfg4.N) (x : S1x128.Idx) :
    (iblk4 V c 6 t : Vec Ideal S1x128 .f32) x = (V c main_v72 : S1x128.Idx → Elt Ideal .f32) x := by
  have e0 : win4_6.index t (0 : Fin 2) = 0 := (idx_facts t).2.2.2.2.2.2.2.1
  have e1 : win4_6.index t (1 : Fin 2) = 0 := (idx_cols t).2.2.2.2.2.2.1
  unfold iblk4
  rw [View.read_apply]
  show V c main_v72 _ = V c main_v72 _
  congr 1
  funext a; apply Fin.ext
  match a with
  | ⟨0, _⟩ => show win4_6.index t 0 * 1 + 1 * (x 0).val = (x 0).val; rw [e0]; omega
  | ⟨1, _⟩ => show win4_6.index t 1 * 128 + 1 * (x 1).val = (x 1).val; rw [e1]; omega

/-- Window 7's one block is its whole array, at every point. -/
theorem blk7_apply (c : Dev nD) (t : Fin cfg4.N) (x : S1x1.Idx) :
    (iblk4 V c 7 t : Vec Ideal S1x1 .f32) x = (V c main_v73 : S1x1.Idx → Elt Ideal .f32) x := by
  have e0 : win4_7.index t (0 : Fin 2) = 0 := (idx_facts t).2.2.2.2.2.2.2.2
  have e1 : win4_7.index t (1 : Fin 2) = 0 := (idx_cols t).2.2.2.2.2.2.2.1
  unfold iblk4
  rw [View.read_apply]
  show V c main_v73 _ = V c main_v73 _
  congr 1
  funext a; apply Fin.ext
  match a with
  | ⟨0, _⟩ => show win4_7.index t 0 * 1 + 1 * (x 0).val = (x 0).val; rw [e0]; omega
  | ⟨1, _⟩ => show win4_7.index t 1 * 1 + 1 * (x 1).val = (x 1).val; rw [e1]; omega

/-- The last layer this region computes on the way, from the arrays as the region finds them. -/
abbrev L (c : Dev nD) : S50000x128.Idx → Elt Ideal .f32 :=
  layerArr (N := 50000) (k := 128) (n := 128) (V c main_v70 : S50000x128.Idx → Elt Ideal .f32)
    (V c main_v12 : S50000x1.Idx → Elt Ideal .f32) (V c main_v60 : S50000x128.Idx → Elt Ideal .f32)
    (V c main_arg14 : S128x128.Idx → Elt Ideal .f32) (V c main_arg16 : S128x128.Idx → Elt Ideal .f32)
    (fun q => (V c main_v71 : S1x128.Idx → Elt Ideal .f32) (ix2 (0 : Fin 1) q))

/-- The whole head this region writes. -/
abbrev G (c : Dev nD) : S50000x1.Idx → Elt Ideal .f32 :=
  headArr (N := 50000) (k := 128) (L V c) (fun j => (V c main_v72 : S1x128.Idx → Elt Ideal .f32) (ix2 (0 : Fin 1) j))
    ((V c main_v73 : S1x1.Idx → Elt Ideal .f32) (ix2 (0 : Fin 1) (0 : Fin 1)))

/-- What point t computes at entry p of its block is the head at row 5000·t + p. -/
theorem body_at (c : Dev nD) (t : Fin cfg4.N) (p : Fin 5000) (u : Fin 1) (i : S50000x1.Idx)
    (hi0 : (i 0).val = t.val * 5000 + p.val) :
    k4_pay1 (F := Ideal) (iblk4 V c 0 t) (iblk4 V c 1 t) (iblk4 V c 2 t) (iblk4 V c 3 t) (iblk4 V c 5 t) (iblk4 V c 4 t) (iblk4 V c 6 t) (iblk4 V c 7 t) (ix2 p u)
      = G V c i := by
  refine (pay_apply _ _ _ _ _ _ _ _ p u).trans ?_
  show _ = (∑ j : Fin 128, sageVal _ _ _ _ _ _ * _) + _
  refine congrArg₂ (· + ·) (Finset.sum_congr rfl fun j _ => congrArg₂ (· * ·) ?_ ?_) ?_
  · congr 1
    · funext c'; exact blk0_apply V c t _ _ hi0 rfl
    · funext c'; exact blk2_apply V c t _ _ hi0 rfl
    · exact blk1_apply V c t _ _ hi0 rfl
    · funext c'; exact blk3_apply V c t _
    · funext c'; exact blk5_apply V c t _
    · exact blk4_apply V c t _
  · exact blk6_apply V c t _
  · exact blk7_apply V c t _

/-- What point t writes back is block t of the head. -/
theorem flushed_eq (c : Dev nD) (t : Fin cfg4.N) :
    (dat4 V c).flushed 8 t = ((cfg4.win 8).blk t).view.read (Elt Ideal) (G V c) := by
  show (cfg4.win 8).cut (grid4.coords t) ((dat4 V c).after 8 t) = _
  rw [after4_8]
  unfold out4_8
  rw [View.canon_unit_zero hz]
  simp only [View.ld_unit_zero (S := S5000x128) hz, View.ld_unit_zero (S := S5000x1) hz, View.ld_unit_zero (S := S128x128) hz, View.ld_unit_zero (S := S1x128) hz, View.ld_unit_zero (S := S1x1) hz]
  have key : ∀ j : S5000x1.Idx, k4_pay1 (F := Ideal) (iblk4 V c 0 t) (iblk4 V c 1 t) (iblk4 V c 2 t) (iblk4 V c 3 t) (iblk4 V c 5 t) (iblk4 V c 4 t) (iblk4 V c 6 t) (iblk4 V c 7 t) j
      = G V c (((cfg4.win 8).blk t).view.emb j) := fun j => by
    obtain ⟨p, u, rfl⟩ : ∃ (p : Fin 5000) (u : Fin 1), j = ix2 p u := ⟨j 0, j 1, eq_ix2 j⟩
    have e0 : win4_8.index t (0 : Fin 2) = t.val := (idx_facts t).2.2.2.1
    refine body_at V c t p u _ ?_
    show win4_8.index t 0 * 5000 + 1 * p.val = _; rw [e0]; omega
  funext j
  exact key j

/-- An index of the array is in point t's block iff each coordinate is in the block's range on its axis. -/
theorem mem_blk (t : Fin cfg4.N) (i : S50000x1.Idx) :
    i ∈ ((cfg4.win 8).blk t).view.set ↔ ∀ a : Fin 2, win4_8.index t a * S5000x1.size a ≤ (i a).val ∧ (i a).val < win4_8.index t a * S5000x1.size a + S5000x1.size a := by
  show i ∈ ((View.whole main_v74).slice (win4_8.rect t)).set ↔ _
  rw [View.set_slice_whole, Rect.mem_set_unit]
  exact Iff.rfl

/-- Row r of the array lies in the block of point r / 5000. -/
theorem cover (i : S50000x1.Idx) : ∃ t : Fin cfg4.N, (cfg4.win 8).flush t = true ∧ i ∈ ((cfg4.win 8).blk t).view.set := by
  have hi0 : (i 0).val < 50000 := (i 0).isLt
  have hi1 : (i 1).val < 1 := (i 1).isLt
  have hN : cfg4.N = 10 := N_4
  let t : Fin cfg4.N := ⟨(i 0).val / 5000, by rw [hN]; omega⟩
  have e0 : win4_8.index t (0 : Fin 2) = (i 0).val / 5000 := (idx_facts t).2.2.2.1
  have e1 : win4_8.index t (1 : Fin 2) = 0 := (idx_cols t).2.2.2.2.2.2.2.2
  refine ⟨t, flush4_8 t, ?_⟩
  rw [mem_blk]
  intro a
  match a with
  | ⟨0, _⟩ => show win4_8.index t (0 : Fin 2) * 5000 ≤ (i 0).val ∧ (i 0).val < win4_8.index t (0 : Fin 2) * 5000 + 5000; rw [e0]; omega
  | ⟨1, _⟩ => show win4_8.index t (1 : Fin 2) * 1 ≤ (i 1).val ∧ (i 1).val < win4_8.index t (1 : Fin 2) * 1 + 1; rw [e1]; omega

/-- After the region its output array holds the whole head. -/
theorem final (c : Dev nD) : (dat4 V c).arrAt 8 cfg4.N = G V c :=
  (dat4 V c).arrAt_eq_of_cover 8 (G V c) (fun t _ => flushed_eq V c t) cover

end Cert.KernelIdeal.Blocks4

end
-- ==== Proof.RefStages.lean ====
/-
  The reference, layer by layer.

  The reference computes each layer on the host: the aggregated features times the repeated column of reciprocal degrees,
  a product with the first weight matrix, plus the bias row, plus the product of the node features with the second weight
  matrix, clamped at zero. Each of its five layer results is the layer (entry by entry) of the previous stage's values, and its
  final result is the head of the fifth.
-/
import proofs.«123790_j70909910057300_1_alg».proof.Proof.Gen.ReferenceIdeal.Read
import proofs.«123790_j70909910057300_1_alg».proof.Proof.LibSageLayer

noncomputable section

namespace Cert.ReferenceIdeal.Stages

open Idealize.ShloMosaic Idealize.ShloMosaic.ValueIdx
open Cert.ReferenceIdeal Cert.ReferenceIdeal.Read Cert.Sage

variable (x0 : (⟨S50000x2, .f32⟩ : BufTy).Contents (Elt Ideal))
  (x1 : (⟨S2x600000, .i32⟩ : BufTy).Contents (Elt Ideal))
  (x2 : (⟨S2x32, .f32⟩ : BufTy).Contents (Elt Ideal))
  (x3 : (⟨S32, .f32⟩ : BufTy).Contents (Elt Ideal))
  (x4 : (⟨S2x32, .f32⟩ : BufTy).Contents (Elt Ideal))
  (x5 : (⟨S32x128, .f32⟩ : BufTy).Contents (Elt Ideal))
  (x6 : (⟨S128, .f32⟩ : BufTy).Contents (Elt Ideal))
  (x7 : (⟨S32x128, .f32⟩ : BufTy).Contents (Elt Ideal))
  (x8 : (⟨S128x128, .f32⟩ : BufTy).Contents (Elt Ideal))
  (x9 : (⟨S128, .f32⟩ : BufTy).Contents (Elt Ideal))
  (x10 : (⟨S128x128, .f32⟩ : BufTy).Contents (Elt Ideal))
  (x11 : (⟨S128x128, .f32⟩ : BufTy).Contents (Elt Ideal))
  (x12 : (⟨S128, .f32⟩ : BufTy).Contents (Elt Ideal))
  (x13 : (⟨S128x128, .f32⟩ : BufTy).Contents (Elt Ideal))
  (x14 : (⟨S128x128, .f32⟩ : BufTy).Contents (Elt Ideal))
  (x15 : (⟨S128, .f32⟩ : BufTy).Contents (Elt Ideal))
  (x16 : (⟨S128x128, .f32⟩ : BufTy).Contents (Elt Ideal))
  (x17 : (⟨S128x1, .f32⟩ : BufTy).Contents (Elt Ideal))
  (x18 : (⟨S1, .f32⟩ : BufTy).Contents (Elt Ideal))

/-- The reference's layer 1. -/
theorem layer1_eq : val_main_v31 (F := Ideal) x0 x1 x2 x3 x4
    = layerArr (val_main_v22 (F := Ideal) x0 x1) (val_main_v12 (F := Ideal) x1) x0 x2 x4 (fun q => x3 (ix1 q)) := by
  unfold val_main_v31 val_main_v30 val_main_v28 val_main_v25 val_main_v24 val_main_v23 val_main_v27 val_main_v26 val_main_v29 val_main_call0_v0 val_main_call0_cst
  exact hostSage_eq _ _ _ _ _ _ _ _ _ _

/-- The reference's layer 2. -/
theorem layer2_eq : val_main_v50 (F := Ideal) x0 x1 x2 x3 x4 x5 x6 x7
    = layerArr (val_main_v41 (F := Ideal) x0 x1 x2 x3 x4) (val_main_v12 (F := Ideal) x1) (val_main_v31 x0 x1 x2 x3 x4) x5 x7 (fun q => x6 (ix1 q)) := by
  unfold val_main_v50 val_main_v49 val_main_v47 val_main_v44 val_main_v43 val_main_v42 val_main_v46 val_main_v45 val_main_v48 val_main_call1_v0 val_main_call1_cst
  exact hostSage_eq _ _ _ _ _ _ _ _ _ _

/-- The reference's layer 3. -/
theorem layer3_eq : val_main_v69 (F := Ideal) x0 x1 x2 x3 x4 x5 x6 x7 x8 x9 x10
    = layerArr (val_main_v60 (F := Ideal) x0 x1 x2 x3 x4 x5 x6 x7) (val_main_v12 (F := Ideal) x1) (val_main_v50 x0 x1 x2 x3 x4 x5 x6 x7) x8 x10 (fun q => x9 (ix1 q)) := by
  unfold val_main_v69 val_main_v68 val_main_v66 val_main_v63 val_main_v62 val_main_v61 val_main_v65 val_main_v64 val_main_v67 val_main_call2_v0 val_main_call2_cst
  exact hostSage_eq _ _ _ _ _ _ _ _ _ _

/-- The reference's layer 4. -/
theorem layer4_eq : val_main_v88 (F := Ideal) x0 x1 x2 x3 x4 x5 x6 x7 x8 x9 x10 x11 x12 x13
    = layerArr (val_main_v79 (F := Ideal) x0 x1 x2 x3 x4 x5 x6 x7 x8 x9 x10) (val_main_v12 (F := Ideal) x1) (val_main_v69 x0 x1 x2 x3 x4 x5 x6 x7 x8 x9 x10) x11 x13 (fun q => x12 (ix1 q)) := by
  unfold val_main_v88 val_main_v87 val_main_v85 val_main_v82 val_main_v81 val_main_v80 val_main_v84 val_main_v83 val_main_v86 val_main_call3_v0 val_main_call3_cst
  exact hostSage_eq _ _ _ _ _ _ _ _ _ _

/-- The reference's layer 5. -/
theorem layer5_eq : val_main_v107 (F := Ideal) x0 x1 x2 x3 x4 x5 x6 x7 x8 x9 x10 x11 x12 x13 x14 x15 x16
    = layerArr (val_main_v98 (F := Ideal) x0 x1 x2 x3 x4 x5 x6 x7 x8 x9 x10 x11 x12 x13) (val_main_v12 (F := Ideal) x1) (val_main_v88 x0 x1 x2 x3 x4 x5 x6 x7 x8 x9 x10 x11 x12 x13) x14 x16 (fun q => x15 (ix1 q)) := by
  unfold val_main_v107 val_main_v106 val_main_v104 val_main_v101 val_main_v100 val_main_v99 val_main_v103 val_main_v102 val_main_v105 val_main_call4_v0 val_main_call4_cst
  exact hostSage_eq _ _ _ _ _ _ _ _ _ _

/-- The reference's result: the head of its fifth layer. -/
theorem head_eq : val_main_v111 (F := Ideal) x0 x1 x2 x3 x4 x5 x6 x7 x8 x9 x10 x11 x12 x13 x14 x15 x16 x17 x18
    = headArr (val_main_v107 (F := Ideal) x0 x1 x2 x3 x4 x5 x6 x7 x8 x9 x10 x11 x12 x13 x14 x15 x16) (fun j => x17 (ix2 j (0 : Fin 1))) (x18 (ix1 (0 : Fin 1))) := by
  unfold val_main_v111 val_main_v108 val_main_v110 val_main_v109
  exact hostHead_eq _ _ _ _ _

end Cert.ReferenceIdeal.Stages

end
-- ==== Proof.Levels.lean ====
/-
  The kernel program's result, level by level.

  The program is five host stretches alternating with five regions. At every boundary the buffers that matter hold the values
  the reference's stages name: the two edge-endpoint vectors and the column of reciprocal degrees (computed once, by the
  first stretch, and kept by everything after it), the arguments (never written), the aggregated features each stretch
  computes by a gather along the edge sources and a scatter-add at the edge targets — the very host operations of the
  reference, of equal operands —, and each region's output, which is the reference's layer of the same stage values because
  a region's blocks tile the layer. The last region's output is the head of the fifth layer: the reference's result.
-/
import proofs.«123790_j70909910057300_1_alg».proof.Proof.Gen.KernelIdeal.Frame
import proofs.«123790_j70909910057300_1_alg».proof.Proof.Gen.ReferenceIdeal.Read
import proofs.«123790_j70909910057300_1_alg».proof.Proof.Kept
import proofs.«123790_j70909910057300_1_alg».proof.Proof.Blocks0
import proofs.«123790_j70909910057300_1_alg».proof.Proof.Blocks1
import proofs.«123790_j70909910057300_1_alg».proof.Proof.Blocks2
import proofs.«123790_j70909910057300_1_alg».proof.Proof.Blocks3
import proofs.«123790_j70909910057300_1_alg».proof.Proof.Blocks4
import proofs.«123790_j70909910057300_1_alg».proof.Proof.RefStages
import Idealize.ShloMosaic.Lib.StableHlo.Run
import Idealize.ShloMosaic.Lib.ValueLayout

set_option maxRecDepth 16384

noncomputable section

namespace Cert.KernelIdeal.Levels

open Idealize.ShloMosaic Idealize.ShloMosaic.TcCoe Idealize.ShloMosaic.ValueIdx Idealize.SL.Sem Idealize.ShloMosaic.StableHlo
open Cert.KernelIdeal Cert.KernelIdeal.Gen Cert.KernelIdeal.Kept Cert.Sage
open Cert.ReferenceIdeal.Read Cert.ReferenceIdeal.Stages

variable (m : (ℓ : Loc nD τ sig) → Buf (Elt Ideal) ℓ) (ρ : Dev nD → PrngReg)

/-! ## The arguments on a core -/
abbrev x0 (c : Dev nD) : (⟨S50000x2, .f32⟩ : BufTy).Contents (Elt Ideal) := m ((c : Thread nD τ).loc main_arg0)
abbrev x1 (c : Dev nD) : (⟨S2x600000, .i32⟩ : BufTy).Contents (Elt Ideal) := m ((c : Thread nD τ).loc main_arg1)
abbrev x2 (c : Dev nD) : (⟨S2x32, .f32⟩ : BufTy).Contents (Elt Ideal) := m ((c : Thread nD τ).loc main_arg2)
abbrev x3 (c : Dev nD) : (⟨S32, .f32⟩ : BufTy).Contents (Elt Ideal) := m ((c : Thread nD τ).loc main_arg3)
abbrev x4 (c : Dev nD) : (⟨S2x32, .f32⟩ : BufTy).Contents (Elt Ideal) := m ((c : Thread nD τ).loc main_arg4)
abbrev x5 (c : Dev nD) : (⟨S32x128, .f32⟩ : BufTy).Contents (Elt Ideal) := m ((c : Thread nD τ).loc main_arg5)
abbrev x6 (c : Dev nD) : (⟨S128, .f32⟩ : BufTy).Contents (Elt Ideal) := m ((c : Thread nD τ).loc main_arg6)
abbrev x7 (c : Dev nD) : (⟨S32x128, .f32⟩ : BufTy).Contents (Elt Ideal) := m ((c : Thread nD τ).loc main_arg7)
abbrev x8 (c : Dev nD) : (⟨S128x128, .f32⟩ : BufTy).Contents (Elt Ideal) := m ((c : Thread nD τ).loc main_arg8)
abbrev x9 (c : Dev nD) : (⟨S128, .f32⟩ : BufTy).Contents (Elt Ideal) := m ((c : Thread nD τ).loc main_arg9)
abbrev x10 (c : Dev nD) : (⟨S128x128, .f32⟩ : BufTy).Contents (Elt Ideal) := m ((c : Thread nD τ).loc main_arg10)
abbrev x11 (c : Dev nD) : (⟨S128x128, .f32⟩ : BufTy).Contents (Elt Ideal) := m ((c : Thread nD τ).loc main_arg11)
abbrev x12 (c : Dev nD) : (⟨S128, .f32⟩ : BufTy).Contents (Elt Ideal) := m ((c : Thread nD τ).loc main_arg12)
abbrev x13 (c : Dev nD) : (⟨S128x128, .f32⟩ : BufTy).Contents (Elt Ideal) := m ((c : Thread nD τ).loc main_arg13)
abbrev x14 (c : Dev nD) : (⟨S128x128, .f32⟩ : BufTy).Contents (Elt Ideal) := m ((c : Thread nD τ).loc main_arg14)
abbrev x15 (c : Dev nD) : (⟨S128, .f32⟩ : BufTy).Contents (Elt Ideal) := m ((c : Thread nD τ).loc main_arg15)
abbrev x16 (c : Dev nD) : (⟨S128x128, .f32⟩ : BufTy).Contents (Elt Ideal) := m ((c : Thread nD τ).loc main_arg16)
abbrev x17 (c : Dev nD) : (⟨S128x1, .f32⟩ : BufTy).Contents (Elt Ideal) := m ((c : Thread nD τ).loc main_arg17)
abbrev x18 (c : Dev nD) : (⟨S1, .f32⟩ : BufTy).Contents (Elt Ideal) := m ((c : Thread nD τ).loc main_arg18)

/-! ## What is kept: a buffer no earlier stretch writes and no earlier region has as an array is as launched -/

theorem arg_at2 (c : Dev nD) (b : Ref sig .tc) (h2 : ∀ w, Pipeline.arrRef spec0 w ≠ b) (h1 : b ∉ hostOps0_W) :
    W2 m ρ c (Proc.devRef .tc b) = m ((c : Thread nD τ).loc b) :=
  (W2_of_ne m ρ c b h2).trans (W1_of m ρ c b h1)
theorem arg_at4 (c : Dev nD) (b : Ref sig .tc) (h4 : ∀ w, Pipeline.arrRef spec1 w ≠ b) (h3 : b ∉ hostOps1_W)
    (h2 : ∀ w, Pipeline.arrRef spec0 w ≠ b) (h1 : b ∉ hostOps0_W) :
    W4 m ρ c (Proc.devRef .tc b) = m ((c : Thread nD τ).loc b) :=
  (W4_of_ne m ρ c b h4).trans ((W3_of m ρ c b h3).trans (arg_at2 m ρ c b h2 h1))
theorem arg_at6 (c : Dev nD) (b : Ref sig .tc) (h6 : ∀ w, Pipeline.arrRef spec2 w ≠ b) (h5 : b ∉ hostOps2_W)
    (h4 : ∀ w, Pipeline.arrRef spec1 w ≠ b) (h3 : b ∉ hostOps1_W)
    (h2 : ∀ w, Pipeline.arrRef spec0 w ≠ b) (h1 : b ∉ hostOps0_W) :
    W6 m ρ c (Proc.devRef .tc b) = m ((c : Thread nD τ).loc b) :=
  (W6_of_ne m ρ c b h6).trans ((W5_of m ρ c b h5).trans (arg_at4 m ρ c b h4 h3 h2 h1))
theorem arg_at8 (c : Dev nD) (b : Ref sig .tc) (h8 : ∀ w, Pipeline.arrRef spec3 w ≠ b) (h7 : b ∉ hostOps3_W)
    (h6 : ∀ w, Pipeline.arrRef spec2 w ≠ b) (h5 : b ∉ hostOps2_W)
    (h4 : ∀ w, Pipeline.arrRef spec1 w ≠ b) (h3 : b ∉ hostOps1_W)
    (h2 : ∀ w, Pipeline.arrRef spec0 w ≠ b) (h1 : b ∉ hostOps0_W) :
    W8 m ρ c (Proc.devRef .tc b) = m ((c : Thread nD τ).loc b) :=
  (W8_of_ne m ρ c b h8).trans ((W7_of m ρ c b h7).trans (arg_at6 m ρ c b h6 h5 h4 h3 h2 h1))

/-! ## After the first stretch: the edge endpoints, the reciprocal degrees, the first aggregation -/

theorem src_at1 (c : Dev nD) : W1 m ρ c (Proc.devRef .tc main_v1) = val_main_v1 (F := Ideal) (x1 m c) := by
  show StableHlo.after hostOps0 (W0 m ρ c) (Proc.devRef .tc main_v1) = _
  after_results_simp
  rfl
theorem dst_at1 (c : Dev nD) : W1 m ρ c (Proc.devRef .tc main_v3) = val_main_v3 (F := Ideal) (x1 m c) := by
  show StableHlo.after hostOps0 (W0 m ρ c) (Proc.devRef .tc main_v3) = _
  after_results_simp
  rfl
theorem deg_at1 (c : Dev nD) : W1 m ρ c (Proc.devRef .tc main_v12) = val_main_v12 (F := Ideal) (x1 m c) := by
  show StableHlo.after hostOps0 (W0 m ρ c) (Proc.devRef .tc main_v12) = _
  after_results_simp
  rfl

/-! ## Before stretch 1: what regions 0 … 0 and the stretches between kept -/

theorem src_at2 (c : Dev nD) : W2 m ρ c (Proc.devRef .tc main_v1) = val_main_v1 (F := Ideal) (x1 m c) :=
  (W2_of_ne m ρ c main_v1 (by decide)).trans (src_at1 m ρ c)
theorem dst_at2 (c : Dev nD) : W2 m ρ c (Proc.devRef .tc main_v3) = val_main_v3 (F := Ideal) (x1 m c) :=
  (W2_of_ne m ρ c main_v3 (by decide)).trans (dst_at1 m ρ c)
theorem deg_at2 (c : Dev nD) : W2 m ρ c (Proc.devRef .tc main_v12) = val_main_v12 (F := Ideal) (x1 m c) :=
  (W2_in m ρ c 1 rfl).trans (deg_at1 m ρ c)

/-! ## Before stretch 2: what regions 0 … 1 and the stretches between kept -/

theorem src_at4 (c : Dev nD) : W4 m ρ c (Proc.devRef .tc main_v1) = val_main_v1 (F := Ideal) (x1 m c) :=
  (W4_of_ne m ρ c main_v1 (by decide)).trans ((W3_of m ρ c main_v1 (by decide)).trans (src_at2 m ρ c))
theorem dst_at4 (c : Dev nD) : W4 m ρ c (Proc.devRef .tc main_v3) = val_main_v3 (F := Ideal) (x1 m c) :=
  (W4_of_ne m ρ c main_v3 (by decide)).trans ((W3_of m ρ c main_v3 (by decide)).trans (dst_at2 m ρ c))
theorem deg_at4 (c : Dev nD) : W4 m ρ c (Proc.devRef .tc main_v12) = val_main_v12 (F := Ideal) (x1 m c) :=
  (W4_in m ρ c 1 rfl).trans ((W3_of m ρ c main_v12 (by decide)).trans (deg_at2 m ρ c))

/-! ## Before stretch 3: what regions 0 … 2 and the stretches between kept -/

theorem src_at6 (c : Dev nD) : W6 m ρ c (Proc.devRef .tc main_v1) = val_main_v1 (F := Ideal) (x1 m c) :=
  (W6_of_ne m ρ c main_v1 (by decide)).trans ((W5_of m ρ c main_v1 (by decide)).trans (src_at4 m ρ c))
theorem dst_at6 (c : Dev nD) : W6 m ρ c (Proc.devRef .tc main_v3) = val_main_v3 (F := Ideal) (x1 m c) :=
  (W6_of_ne m ρ c main_v3 (by decide)).trans ((W5_of m ρ c main_v3 (by decide)).trans (dst_at4 m ρ c))
theorem deg_at6 (c : Dev nD) : W6 m ρ c (Proc.devRef .tc main_v12) = val_main_v12 (F := Ideal) (x1 m c) :=
  (W6_in m ρ c 1 rfl).trans ((W5_of m ρ c main_v12 (by decide)).trans (deg_at4 m ρ c))

/-! ## Before stretch 4: what regions 0 … 3 and the stretches between kept -/

theorem src_at8 (c : Dev nD) : W8 m ρ c (Proc.devRef .tc main_v1) = val_main_v1 (F := Ideal) (x1 m c) :=
  (W8_of_ne m ρ c main_v1 (by decide)).trans ((W7_of m ρ c main_v1 (by decide)).trans (src_at6 m ρ c))
theorem dst_at8 (c : Dev nD) : W8 m ρ c (Proc.devRef .tc main_v3) = val_main_v3 (F := Ideal) (x1 m c) :=
  (W8_of_ne m ρ c main_v3 (by decide)).trans ((W7_of m ρ c main_v3 (by decide)).trans (dst_at6 m ρ c))
theorem deg_at8 (c : Dev nD) : W8 m ρ c (Proc.devRef .tc main_v12) = val_main_v12 (F := Ideal) (x1 m c) :=
  (W8_in m ρ c 1 rfl).trans ((W7_of m ρ c main_v12 (by decide)).trans (deg_at6 m ρ c))

/-! ## Stretch 0 and region 0 -/

/-- The aggregation stretch 0 computes: the reference's, of equal operands. -/
theorem agg0 (c : Dev nD) : W1 m ρ c (Proc.devRef .tc main_v22) = val_main_v22 (F := Ideal) (x0 m c) (x1 m c) := by
  show StableHlo.after hostOps0 (W0 m ρ c) (Proc.devRef .tc main_v22) = _
  after_results_simp
  rfl
/-- The bias row the stretch lays out: entry (0, q) is entry q of the bias argument. -/
theorem bias0 (c : Dev nD) (q : Fin 32) :
    (W1 m ρ c (Proc.devRef .tc main_v23) : S1x32.Idx → Elt Ideal .f32) (ix2 (0 : Fin 1) q) = x3 m c (ix1 q) := by
  have e : (W1 m ρ c (Proc.devRef .tc main_v23) : S1x32.Idx → Elt Ideal .f32)
      = shapeCast S1x32 (W0 m ρ c (Proc.devRef .tc main_arg3) : S32.Idx → Elt Ideal .f32) shapeCasts_S32_S1x32 := by
    show StableHlo.after hostOps0 (W0 m ρ c) (Proc.devRef .tc main_v23) = _
    after_results_simp
    rfl
  rw [e, shapeCast_a_1a_apply]

/-- Region 0's output is the reference's layer 1. -/
theorem out0 (c : Dev nD) : W2 m ρ c (Proc.devRef .tc main_v24) = val_main_v31 (F := Ideal) (x0 m c) (x1 m c) (x2 m c) (x3 m c) (x4 m c) :=
  (W2_arr m ρ c 6).trans ((Blocks0.final (V1 m ρ) c).trans
    ((layerArr_congr (agg0 m ρ c) (deg_at1 m ρ c) (W1_of m ρ c main_arg0 (by decide))
        (W1_of m ρ c main_arg2 (by decide)) (W1_of m ρ c main_arg4 (by decide)) (funext fun q => bias0 m ρ c q)).trans
      (layer1_eq (x0 m c) (x1 m c) (x2 m c) (x3 m c) (x4 m c)).symm))

/-! ## Stretch 1 and region 1 -/

/-- The aggregation stretch 1 computes: the reference's, of equal operands. -/
theorem agg1 (c : Dev nD) : W3 m ρ c (Proc.devRef .tc main_v34) = val_main_v41 (F := Ideal) (x0 m c) (x1 m c) (x2 m c) (x3 m c) (x4 m c) := by
  show StableHlo.after hostOps1 (W2 m ρ c) (Proc.devRef .tc main_v34) = _
  after_results_simp
  rw [out0 m ρ c, src_at2 m ρ c, dst_at2 m ρ c]
  rfl
theorem deg1 (c : Dev nD) : W3 m ρ c (Proc.devRef .tc main_v12) = val_main_v12 (F := Ideal) (x1 m c) :=
  (W3_of m ρ c main_v12 (by decide)).trans (deg_at2 m ρ c)
theorem prev1 (c : Dev nD) : W3 m ρ c (Proc.devRef .tc main_v24) = val_main_v31 (F := Ideal) (x0 m c) (x1 m c) (x2 m c) (x3 m c) (x4 m c) :=
  (W3_of m ρ c main_v24 (by decide)).trans (out0 m ρ c)
/-- The bias row the stretch lays out: entry (0, q) is entry q of the bias argument. -/
theorem bias1 (c : Dev nD) (q : Fin 128) :
    (W3 m ρ c (Proc.devRef .tc main_v35) : S1x128.Idx → Elt Ideal .f32) (ix2 (0 : Fin 1) q) = x6 m c (ix1 q) := by
  have e : (W3 m ρ c (Proc.devRef .tc main_v35) : S1x128.Idx → Elt Ideal .f32)
      = shapeCast S1x128 (W2 m ρ c (Proc.devRef .tc main_arg6) : S128.Idx → Elt Ideal .f32) shapeCasts_S128_S1x128 := by
    show StableHlo.after hostOps1 (W2 m ρ c) (Proc.devRef .tc main_v35) = _
    after_results_simp
    rfl
  rw [e, shapeCast_a_1a_apply, arg_at2 m ρ c main_arg6 (by decide) (by decide)]

/-- Region 1's output is the reference's layer 2. -/
theorem out1 (c : Dev nD) : W4 m ρ c (Proc.devRef .tc main_v36) = val_main_v50 (F := Ideal) (x0 m c) (x1 m c) (x2 m c) (x3 m c) (x4 m c) (x5 m c) (x6 m c) (x7 m c) :=
  (W4_arr m ρ c 6).trans ((Blocks1.final (V3 m ρ) c).trans
    ((layerArr_congr (agg1 m ρ c) (deg1 m ρ c) (prev1 m ρ c)
        ((W3_of m ρ c main_arg5 (by decide)).trans (arg_at2 m ρ c main_arg5 (by decide) (by decide))) ((W3_of m ρ c main_arg7 (by decide)).trans (arg_at2 m ρ c main_arg7 (by decide) (by decide))) (funext fun q => bias1 m ρ c q)).trans
      (layer2_eq (x0 m c) (x1 m c) (x2 m c) (x3 m c) (x4 m c) (x5 m c) (x6 m c) (x7 m c)).symm))

/-! ## Stretch 2 and region 2 -/

/-- The aggregation stretch 2 computes: the reference's, of equal operands. -/
theorem agg2 (c : Dev nD) : W5 m ρ c (Proc.devRef .tc main_v46) = val_main_v60 (F := Ideal) (x0 m c) (x1 m c) (x2 m c) (x3 m c) (x4 m c) (x5 m c) (x6 m c) (x7 m c) := by
  show StableHlo.after hostOps2 (W4 m ρ c) (Proc.devRef .tc main_v46) = _
  after_results_simp
  rw [out1 m ρ c, src_at4 m ρ c, dst_at4 m ρ c]
  rfl
theorem deg2 (c : Dev nD) : W5 m ρ c (Proc.devRef .tc main_v12) = val_main_v12 (F := Ideal) (x1 m c) :=
  (W5_of m ρ c main_v12 (by decide)).trans (deg_at4 m ρ c)
theorem prev2 (c : Dev nD) : W5 m ρ c (Proc.devRef .tc main_v36) = val_main_v50 (F := Ideal) (x0 m c) (x1 m c) (x2 m c) (x3 m c) (x4 m c) (x5 m c) (x6 m c) (x7 m c) :=
  (W5_of m ρ c main_v36 (by decide)).trans (out1 m ρ c)
/-- The bias row the stretch lays out: entry (0, q) is entry q of the bias argument. -/
theorem bias2 (c : Dev nD) (q : Fin 128) :
    (W5 m ρ c (Proc.devRef .tc main_v47) : S1x128.Idx → Elt Ideal .f32) (ix2 (0 : Fin 1) q) = x9 m c (ix1 q) := by
  have e : (W5 m ρ c (Proc.devRef .tc main_v47) : S1x128.Idx → Elt Ideal .f32)
      = shapeCast S1x128 (W4 m ρ c (Proc.devRef .tc main_arg9) : S128.Idx → Elt Ideal .f32) shapeCasts_S128_S1x128 := by
    show StableHlo.after hostOps2 (W4 m ρ c) (Proc.devRef .tc main_v47) = _
    after_results_simp
    rfl
  rw [e, shapeCast_a_1a_apply, arg_at4 m ρ c main_arg9 (by decide) (by decide) (by decide) (by decide)]

/-- Region 2's output is the reference's layer 3. -/
theorem out2 (c : Dev nD) : W6 m ρ c (Proc.devRef .tc main_v48) = val_main_v69 (F := Ideal) (x0 m c) (x1 m c) (x2 m c) (x3 m c) (x4 m c) (x5 m c) (x6 m c) (x7 m c) (x8 m c) (x9 m c) (x10 m c) :=
  (W6_arr m ρ c 6).trans ((Blocks2.final (V5 m ρ) c).trans
    ((layerArr_congr (agg2 m ρ c) (deg2 m ρ c) (prev2 m ρ c)
        ((W5_of m ρ c main_arg8 (by decide)).trans (arg_at4 m ρ c main_arg8 (by decide) (by decide) (by decide) (by decide))) ((W5_of m ρ c main_arg10 (by decide)).trans (arg_at4 m ρ c main_arg10 (by decide) (by decide) (by decide) (by decide))) (funext fun q => bias2 m ρ c q)).trans
      (layer3_eq (x0 m c) (x1 m c) (x2 m c) (x3 m c) (x4 m c) (x5 m c) (x6 m c) (x7 m c) (x8 m c) (x9 m c) (x10 m c)).symm))

/-! ## Stretch 3 and region 3 -/

/-- The aggregation stretch 3 computes: the reference's, of equal operands. -/
theorem agg3 (c : Dev nD) : W7 m ρ c (Proc.devRef .tc main_v58) = val_main_v79 (F := Ideal) (x0 m c) (x1 m c) (x2 m c) (x3 m c) (x4 m c) (x5 m c) (x6 m c) (x7 m c) (x8 m c) (x9 m c) (x10 m c) := by
  show StableHlo.after hostOps3 (W6 m ρ c) (Proc.devRef .tc main_v58) = _
  after_results_simp
  rw [out2 m ρ c, src_at6 m ρ c, dst_at6 m ρ c]
  rfl
theorem deg3 (c : Dev nD) : W7 m ρ c (Proc.devRef .tc main_v12) = val_main_v12 (F := Ideal) (x1 m c) :=
  (W7_of m ρ c main_v12 (by decide)).trans (deg_at6 m ρ c)
theorem prev3 (c : Dev nD) : W7 m ρ c (Proc.devRef .tc main_v48) = val_main_v69 (F := Ideal) (x0 m c) (x1 m c) (x2 m c) (x3 m c) (x4 m c) (x5 m c) (x6 m c) (x7 m c) (x8 m c) (x9 m c) (x10 m c) :=
  (W7_of m ρ c main_v48 (by decide)).trans (out2 m ρ c)
/-- The bias row the stretch lays out: entry (0, q) is entry q of the bias argument. -/
theorem bias3 (c : Dev nD) (q : Fin 128) :
    (W7 m ρ c (Proc.devRef .tc main_v59) : S1x128.Idx → Elt Ideal .f32) (ix2 (0 : Fin 1) q) = x12 m c (ix1 q) := by
  have e : (W7 m ρ c (Proc.devRef .tc main_v59) : S1x128.Idx → Elt Ideal .f32)
      = shapeCast S1x128 (W6 m ρ c (Proc.devRef .tc main_arg12) : S128.Idx → Elt Ideal .f32) shapeCasts_S128_S1x128 := by
    show StableHlo.after hostOps3 (W6 m ρ c) (Proc.devRef .tc main_v59) = _
    after_results_simp
    rfl
  rw [e, shapeCast_a_1a_apply, arg_at6 m ρ c main_arg12 (by decide) (by decide) (by decide) (by decide) (by decide) (by decide)]

/-- Region 3's output is the reference's layer 4. -/
theorem out3 (c : Dev nD) : W8 m ρ c (Proc.devRef .tc main_v60) = val_main_v88 (F := Ideal) (x0 m c) (x1 m c) (x2 m c) (x3 m c) (x4 m c) (x5 m c) (x6 m c) (x7 m c) (x8 m c) (x9 m c) (x10 m c) (x11 m c) (x12 m c) (x13 m c) :=
  (W8_arr m ρ c 6).trans ((Blocks3.final (V7 m ρ) c).trans
    ((layerArr_congr (agg3 m ρ c) (deg3 m ρ c) (prev3 m ρ c)
        ((W7_of m ρ c main_arg11 (by decide)).trans (arg_at6 m ρ c main_arg11 (by decide) (by decide) (by decide) (by decide) (by decide) (by decide))) ((W7_of m ρ c main_arg13 (by decide)).trans (arg_at6 m ρ c main_arg13 (by decide) (by decide) (by decide) (by decide) (by decide) (by decide))) (funext fun q => bias3 m ρ c q)).trans
      (layer4_eq (x0 m c) (x1 m c) (x2 m c) (x3 m c) (x4 m c) (x5 m c) (x6 m c) (x7 m c) (x8 m c) (x9 m c) (x10 m c) (x11 m c) (x12 m c) (x13 m c)).symm))

/-! ## Stretch 4 and region 4 -/

/-- The aggregation stretch 4 computes: the reference's, of equal operands. -/
theorem agg4 (c : Dev nD) : W9 m ρ c (Proc.devRef .tc main_v70) = val_main_v98 (F := Ideal) (x0 m c) (x1 m c) (x2 m c) (x3 m c) (x4 m c) (x5 m c) (x6 m c) (x7 m c) (x8 m c) (x9 m c) (x10 m c) (x11 m c) (x12 m c) (x13 m c) := by
  show StableHlo.after hostOps4 (W8 m ρ c) (Proc.devRef .tc main_v70) = _
  after_results_simp
  rw [out3 m ρ c, src_at8 m ρ c, dst_at8 m ρ c]
  rfl
theorem deg4 (c : Dev nD) : W9 m ρ c (Proc.devRef .tc main_v12) = val_main_v12 (F := Ideal) (x1 m c) :=
  (W9_of m ρ c main_v12 (by decide)).trans (deg_at8 m ρ c)
theorem prev4 (c : Dev nD) : W9 m ρ c (Proc.devRef .tc main_v60) = val_main_v88 (F := Ideal) (x0 m c) (x1 m c) (x2 m c) (x3 m c) (x4 m c) (x5 m c) (x6 m c) (x7 m c) (x8 m c) (x9 m c) (x10 m c) (x11 m c) (x12 m c) (x13 m c) :=
  (W9_of m ρ c main_v60 (by decide)).trans (out3 m ρ c)
/-- The bias row the stretch lays out: entry (0, q) is entry q of the bias argument. -/
theorem bias4 (c : Dev nD) (q : Fin 128) :
    (W9 m ρ c (Proc.devRef .tc main_v71) : S1x128.Idx → Elt Ideal .f32) (ix2 (0 : Fin 1) q) = x15 m c (ix1 q) := by
  have e : (W9 m ρ c (Proc.devRef .tc main_v71) : S1x128.Idx → Elt Ideal .f32)
      = shapeCast S1x128 (W8 m ρ c (Proc.devRef .tc main_arg15) : S128.Idx → Elt Ideal .f32) shapeCasts_S128_S1x128 := by
    show StableHlo.after hostOps4 (W8 m ρ c) (Proc.devRef .tc main_v71) = _
    after_results_simp
    rfl
  rw [e, shapeCast_a_1a_apply, arg_at8 m ρ c main_arg15 (by decide) (by decide) (by decide) (by decide) (by decide) (by decide) (by decide) (by decide)]

/-- The head's weight row the stretch lays out: entry (0, j) is entry (j, 0) of the weight column. -/
theorem wrow (c : Dev nD) (j : Fin 128) :
    (W9 m ρ c (Proc.devRef .tc main_v72) : S1x128.Idx → Elt Ideal .f32) (ix2 (0 : Fin 1) j) = x17 m c (ix2 j (0 : Fin 1)) := by
  have e : (W9 m ρ c (Proc.devRef .tc main_v72) : S1x128.Idx → Elt Ideal .f32)
      = shapeCast S1x128 (W8 m ρ c (Proc.devRef .tc main_arg17) : S128x1.Idx → Elt Ideal .f32) shapeCasts_S128x1_S1x128 := by
    show StableHlo.after hostOps4 (W8 m ρ c) (Proc.devRef .tc main_v72) = _
    after_results_simp
    rfl
  rw [e, arg_at8 m ρ c main_arg17 (by decide) (by decide) (by decide) (by decide) (by decide) (by decide) (by decide) (by decide)]
  refine shapeCast_apply _ _ _ (ix2 j (0 : Fin 1)) ?_
  rw [Shape.rowMajor_val_two, Shape.rowMajor_val_two]
  show j.val * 1 + 0 = 0 * 128 + j.val
  omega

/-- The head's scalar the stretch lays out as a [1, 1] array. -/
theorem hscal (c : Dev nD) :
    (W9 m ρ c (Proc.devRef .tc main_v73) : S1x1.Idx → Elt Ideal .f32) (ix2 (0 : Fin 1) (0 : Fin 1)) = x18 m c (ix1 (0 : Fin 1)) := by
  have e : (W9 m ρ c (Proc.devRef .tc main_v73) : S1x1.Idx → Elt Ideal .f32)
      = shapeCast S1x1 (W8 m ρ c (Proc.devRef .tc main_arg18) : S1.Idx → Elt Ideal .f32) shapeCasts_S1_S1x1 := by
    show StableHlo.after hostOps4 (W8 m ρ c) (Proc.devRef .tc main_v73) = _
    after_results_simp
    rfl
  rw [e, shapeCast_a_1a_apply, arg_at8 m ρ c main_arg18 (by decide) (by decide) (by decide) (by decide) (by decide) (by decide) (by decide) (by decide)]

/-- THE RESULT: the last region's output is the reference's result, the head of its fifth layer. -/
theorem result (c : Dev nD) : W10 m ρ c (Proc.devRef .tc main_v74) = val_main_v111 (F := Ideal) (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c) :=
  (W10_arr m ρ c 8).trans ((Blocks4.final (V9 m ρ) c).trans
    ((headArr_congr
        ((layerArr_congr (agg4 m ρ c) (deg4 m ρ c) (prev4 m ρ c)
          ((W9_of m ρ c main_arg14 (by decide)).trans (arg_at8 m ρ c main_arg14 (by decide) (by decide) (by decide) (by decide) (by decide) (by decide) (by decide) (by decide))) ((W9_of m ρ c main_arg16 (by decide)).trans (arg_at8 m ρ c main_arg16 (by decide) (by decide) (by decide) (by decide) (by decide) (by decide) (by decide) (by decide))) (funext fun q => bias4 m ρ c q)).trans (layer5_eq (x0 m c) (x1 m c) (x2 m c) (x3 m c) (x4 m c) (x5 m c) (x6 m c) (x7 m c) (x8 m c) (x9 m c) (x10 m c) (x11 m c) (x12 m c) (x13 m c) (x14 m c) (x15 m c) (x16 m c)).symm)
        (funext fun j => wrow m ρ c j) (hscal m ρ c)).trans
      (head_eq (x0 m c) (x1 m c) (x2 m c) (x3 m c) (x4 m c) (x5 m c) (x6 m c) (x7 m c) (x8 m c) (x9 m c) (x10 m c) (x11 m c) (x12 m c) (x13 m c) (x14 m c) (x15 m c) (x16 m c) (x17 m c) (x18 m c)).symm))

end Cert.KernelIdeal.Levels

end
-- ==== Proof.lean ====
/-
  The certificate of a five-layer mean-aggregation graph network with a linear head.

  The kernel program computes, on the host, the in-degree reciprocals and, before each layer, the sum over incoming
  edges of the source nodes' features (a gather along the edge sources, a scatter-add at the edge targets); each layer —
  max(Σ (a·d)·Wl + Σ x·Wr + b, 0) — runs as a region over ten blocks of 5000 rows, and the last region also contracts
  its layer with the head's weight column and adds the head's scalar. The reference does all of it on the host.

  Equal results on the extended reals: the host operations around the regions are the reference's own operations, so they
  agree as soon as their operands do; a region's blocks tile the layer the reference computes (an entry of a layer
  depends on one row of the row-blocked operands); and the two spellings of a layer's entry differ only in the order the
  bias and the second product are added, which commutativity and associativity of addition settle at every extended
  real, infinite ones included — the finiteness of the inputs is not used. The head is a contraction written once as a
  lane sum and once as a product with a one-column matrix.

  The three frames: the two kernel programs' are the generated ones; the reference's is its generated run with the
  result dropped. The idealization rewrote no operation, so nothing is to be preserved.
-/
import proofs.«123790_j70909910057300_1_alg».proof.Defs
import proofs.«123790_j70909910057300_1_alg».proof.Proof.Gen.Kernel
import proofs.«123790_j70909910057300_1_alg».proof.Proof.Gen.Kernel.Skeleton
import proofs.«123790_j70909910057300_1_alg».proof.Proof.Gen.Kernel.Launch
import proofs.«123790_j70909910057300_1_alg».proof.Proof.Gen.Kernel.Points
import proofs.«123790_j70909910057300_1_alg».proof.Proof.Gen.Kernel.Frame
import proofs.«123790_j70909910057300_1_alg».proof.Proof.Gen.KernelIdeal
import proofs.«123790_j70909910057300_1_alg».proof.Proof.Gen.KernelIdeal.Skeleton
import proofs.«123790_j70909910057300_1_alg».proof.Proof.Gen.KernelIdeal.Launch
import proofs.«123790_j70909910057300_1_alg».proof.Proof.Gen.KernelIdeal.Points
import proofs.«123790_j70909910057300_1_alg».proof.Proof.Gen.KernelIdeal.Frame
import proofs.«123790_j70909910057300_1_alg».proof.Proof.Gen.ReferenceIdeal
import proofs.«123790_j70909910057300_1_alg».proof.Proof.Gen.ReferenceIdeal.Run
import proofs.«123790_j70909910057300_1_alg».proof.Proof.Gen.ReferenceIdeal.Read
import proofs.«123790_j70909910057300_1_alg».proof.Proof.Gen.Pre_finite_inputs
import proofs.«123790_j70909910057300_1_alg».proof.Proof.KernelRun
import proofs.«123790_j70909910057300_1_alg».proof.Proof.Levels
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the (agreeing) arguments in their result buffers. -/
theorem algebraic : Cert.algebraic_KernelIdeal_ReferenceIdeal := by
  intro m ρ m' ρ' _ hagree
  refine ⟨fun c => Cert.ReferenceIdeal.Read.val_main_v111 (F := Ideal) (Cert.KernelIdeal.Levels.x0 m c) (Cert.KernelIdeal.Levels.x1 m c) (Cert.KernelIdeal.Levels.x2 m c) (Cert.KernelIdeal.Levels.x3 m c) (Cert.KernelIdeal.Levels.x4 m c) (Cert.KernelIdeal.Levels.x5 m c) (Cert.KernelIdeal.Levels.x6 m c) (Cert.KernelIdeal.Levels.x7 m c) (Cert.KernelIdeal.Levels.x8 m c) (Cert.KernelIdeal.Levels.x9 m c) (Cert.KernelIdeal.Levels.x10 m c) (Cert.KernelIdeal.Levels.x11 m c) (Cert.KernelIdeal.Levels.x12 m c) (Cert.KernelIdeal.Levels.x13 m c) (Cert.KernelIdeal.Levels.x14 m c) (Cert.KernelIdeal.Levels.x15 m c) (Cert.KernelIdeal.Levels.x16 m c) (Cert.KernelIdeal.Levels.x17 m c) (Cert.KernelIdeal.Levels.x18 m c), ?_, ?_⟩
  · exact (θ_run Cert.KernelIdeal.defs _ _).mono
      (fun r h c => ⟨(h c).1.trans (Cert.KernelIdeal.Levels.result m ρ c), (h c).2⟩)
      (Cert.KernelIdeal.ValueRun.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v111_eq]
    obtain ⟨e0, e1, e2, e3, e4, e5, e6, e7, e8, e9, e10, e11, e12, e13, e14, e15, e16, e17, e18⟩ := hagree c
    rw [e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
